-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 100#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x128 : Shape := ⟨2, ![8192, 128]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S128x128 : Shape := ⟨2, ![128, 128]⟩
abbrev S_ : Shape := ⟨0, ![]⟩
abbrev S128x1 : Shape := ⟨2, ![128, 1]⟩
abbrev S128x256 : Shape := ⟨2, ![128, 256]⟩
abbrev S256x1 : Shape := ⟨2, ![256, 1]⟩
abbrev S256x128 : Shape := ⟨2, ![256, 128]⟩
abbrev S256x8192 : Shape := ⟨2, ![256, 8192]⟩
abbrev S256 : Shape := ⟨1, ![256]⟩
abbrev S256x256 : Shape := ⟨2, ![256, 256]⟩

abbrev nBuf : Space → Nat
  | .hbm => 31
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x1, .i32⟩
  | .hbm, ⟨4, _⟩ => ⟨S128, .i32⟩
  | .hbm, ⟨5, _⟩ => ⟨S8192x1, .i32⟩
  | .hbm, ⟨6, _⟩ => ⟨S1x128, .i32⟩
  | .hbm, ⟨7, _⟩ => ⟨S8192x128, .i32⟩
  | .hbm, ⟨8, _⟩ => ⟨S8192x128, .i32⟩
  | .hbm, ⟨9, _⟩ => ⟨S8192x128, .i1⟩
  | .hbm, ⟨10, _⟩ => ⟨S8192x128, .bf16⟩
  | .hbm, ⟨11, _⟩ => ⟨S128x128, .f32⟩
  | .hbm, ⟨12, _⟩ => ⟨S8192x128, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S128x128, .f32⟩
  | .hbm, ⟨17, _⟩ => ⟨S128x256, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .local _ .vmem, ⟨0, _⟩ => ⟨S8192x128, .bf16⟩
  | .local _ .vmem, ⟨1, _⟩ => ⟨S128x256, .f32⟩
  | .local _ .vmem, ⟨2, _⟩ => ⟨S256x1, .i32⟩
  | .local _ .vmem, ⟨3, _⟩ => ⟨S256x1, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S8192_S8192x1 : S8192.ShapeCasts S8192x1
  bcast_S8192_S8192x1_0 : S8192.BroadcastsInDim S8192x1 (![0] : Fin 1 → Fin S8192x1.rank)
  bcast_S128_S1x128_1 : S128.BroadcastsInDim S1x128 (![1] : Fin 1 → Fin S1x128.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  reducesTo_S8192x128_S128_d0 : S8192x128.ReducesTo [0] S128
  h_S_ : 0 < S_.numel
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  concatenates_S128x128_S128x128_S128x256_d1 : Shape.Concatenates [S128x128, S128x128] S128x256 1
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S256x8192_S256 : S256x8192.Reduces [1] S256
  shapeCasts_S256_S256x1 : S256.ShapeCasts S256x1
  broadcasts_S256x1_S256x8192 : S256x1.Broadcasts S256x8192
  reduces_S256x128_S256 : S256x128.Reduces [1] S256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x128_d1_w32 : S256x128.Iotas .tc 32 [1]
  broadcasts_S256x1_S256x128 : S256x1.Broadcasts S256x128
  natLt_1_32 : 1 < 32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S256x256_o0_0_S256x128 : S256x256.Slices ![0, 0] S256x128
  slices_S256x256_o0_128_S256x128 : S256x256.Slices ![0, 128] S256x128
  reducesTo_S8192x1_S_d0_1 : S8192x1.ReducesTo [0, 1] S_
  dot_S8192x128_S8192x128_S128x128_0_0_1_1_n_n_wf : DotDims.WF S8192x128 S8192x128 S128x128 [0] [0] [1] [1] [] []
  dot_S256x128_S8192x128_S256x8192_1_1_0_0_n_n_wf : DotDims.WF S256x128 S8192x128 S256x8192 [1] [1] [0] [0] [] []
  dot_S256x128_S128x256_S256x256_1_0_0_1_n_n_wf : DotDims.WF S256x128 S128x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .i32 = 32 ∨ (Rect.block (s := S8192x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)

variable [Facts₀]

def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf
def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_v0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S_ : Shape := ⟨0, ![]⟩
abbrev S1x8192 : Shape := ⟨2, ![1, 8192]⟩
abbrev S8192x1 : Shape := ⟨2, ![8192, 1]⟩

abbrev nBuf : Space → Nat
  | .hbm => 65
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S1x8192, .i32⟩
  | .hbm, ⟨8, _⟩ => ⟨S8192x1, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x8192, .i32⟩
  | .hbm, ⟨13, _⟩ => ⟨S8192x8192, .i32⟩
  | .hbm, ⟨14, _⟩ => ⟨S_, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S8192x8192, .i1⟩
  | .hbm, ⟨19, _⟩ => ⟨S8192x8192, .i1⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .i1⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  reducesTo_S8192x8192_S8192_d1 : S8192x8192.ReducesTo [1] S8192
  h_S_ : 0 < S_.numel
  bcast_S_S8192x1 : S_.BroadcastsInDim S8192x1 (![] : Fin 0 → Fin S8192x1.rank)
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.TailDef.lean ====
/-
  The host operations after the kernel, as one function of the two output columns: the sum `n` of the validity column,
  the sum `s` of the value column, and `s / max n 1` if `n > 0`, zero otherwise.
-/
import proofs.«108639_j90117003805311_2_alg».proof.Proof.Gen.KernelIdeal

noncomputable section

namespace Cert.KernelIdeal.Tail

open Idealize.ShloMosaic Cert.KernelIdeal
open Cert.KernelIdeal.Facts₀ Cert.KernelIdeal.Facts

variable {F : FTy → Type} [FloatOps F]

/-- The program's result from its two output columns `a3` (per-row values) and `a4` (per-row validity). -/
def tail (a3 a4 : (⟨S8192x1, .f32⟩ : BufTy).Contents (Elt F)) : (⟨S_, .f32⟩ : BufTy).Contents (Elt F) :=
  select
    (cmpf (F := F) .ogt
      (Host.reduceAdd (F := F) a4 (constant (F := F) S_ .f32 0x00000000#32) reducesTo_S8192x1_S_d0_1 h_S_)
      (constant (F := F) S_ .f32 0x00000000#32))
    (Host.divf (F := F)
      (Host.reduceAdd (F := F) a3 (constant (F := F) S_ .f32 0x00000000#32) reducesTo_S8192x1_S_d0_1 h_S_)
      (maximumf
        (Host.reduceAdd (F := F) a4 (constant (F := F) S_ .f32 0x00000000#32) reducesTo_S8192x1_S_d0_1 h_S_)
        (constant (F := F) S_ .f32 0x3F800000#32)))
    (constant (F := F) S_ .f32 0x00000000#32)

end Cert.KernelIdeal.Tail

end
-- ==== Proof.KernelTail.lean ====
/-
  The kernel program's run, read: the result buffer ends at the host tail applied to the two output columns as the
  kernel's grid leaves them, and the two argument arrays end unchanged.
-/
import proofs.«108639_j90117003805311_2_alg».proof.Proof.TailDef
import proofs.«108639_j90117003805311_2_alg».proof.Proof.Gen.KernelIdeal.Frame
import Idealize.ShloMosaic.Lib.StableHlo.Run
import Idealize.ShloMosaic.Lib.Pipeline.Value

set_option maxRecDepth 16384

noncomputable section

namespace Cert.KernelIdeal.Tail

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F] [Named F]
variable (m : (ℓ : Loc nD τ sig) → Buf (Elt F) ℓ) (ρ : Dev nD → PrngReg)

/-- The operations after the region, run on the memory the region leaves, write the tail of the two output columns. -/
theorem tail_eq (c : Dev nD) :
    Pipeline.afterTail₀ cfgs (dats m) 0 (V0 m) [hostOps1, hostOps1_1] c main_v21
      = tail ((dats m 0 c).arrAt 3 cfg0.N) ((dats m 0 c).arrAt 4 cfg0.N) := by
  have e3 : Pipeline.withArrays (cfgs 0).spec c (V0 m c) (fun w => (dats m 0 c).arrAt w (cfgs 0).N) (Proc.devRef .tc main_v15_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v15_1)
      = (dats m 0 c).arrAt 4 cfg0.N := Pipeline.withArrays_arr spec0 launch0.win.arr_inj c _ _ 4
  unfold Pipeline.afterTail₀
  simp only [hostOps1, hostOps1_1, List.flatten_cons, List.flatten_nil, List.append_nil, List.cons_append, List.nil_append]
  after_results
  rw [e3, e4]
  rfl

/-- The run: the result at the tail of the two final columns, the arguments unchanged. -/
theorem run : θ_run defs (onTc (τ := τ) (main (F := F))) ⟨m, fun _ => 0, ρ⟩ fun r => ∀ c : Dev nD,
      r.2.mem ((c.tc : Thread nD τ).loc main_v21) = tail ((dats m 0 c).arrAt 3 cfg0.N) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v21 (Pipeline.mem_restRefs_of main_v21 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Tail

end
-- ==== Proof.KernelPiece.lean ====
/-
  What the kernel body leaves in its two output blocks at a grid point: each output block is written by ONE store that
  covers it, so the block is that store's value — a pure function of what the body loaded: the block's 256 rows of the
  feature array, the whole feature array, the class table and the block's 256 labels.
-/
import proofs.«108639_j90117003805311_2_alg».proof.Proof.Gen.KernelIdeal.Frame
import Idealize.ShloMosaic.Lib.Pipeline.Value

set_option maxRecDepth 16384

noncomputable section

namespace Cert.KernelIdeal.Piece

open Idealize.ShloMosaic Idealize.ShloMosaic.TcCoe Idealize.ShloMosaic.Tactic Idealize.SL.Sem
open Cert.KernelIdeal Cert.KernelIdeal.Gen

variable {F : FTy → Type} [FloatOps F] [Named F]

theorem hz2 : (![0, 0] : Fin 2 → Nat) = fun _ => 0 := funext fun a => by fin_cases a <;> rfl

/-- The 256 rows of the feature array that the body reads for its block at grid point `i`: rows `256·i … 256·i + 255`. -/
abbrev qrows (i : grid0.Coords) (x0 : Vec F S8192x128 .bf16) : Vec F S256x128 .bf16 :=
  View.ld x0 (Rect.unit (s := S8192x128) (k0_off1 i) S256x128.size (k0_off1_inb i))

/-- What the body leaves in the first output's block: its one covering store's value, as a function of the block's rows
    of the features, all the features, the class table and the block's labels. -/
theorem out3_eq (c : Dev nD) (i : grid0.Coords) (arg1 : Memref sig .tc .vmem S8192x128 .bf16) (harg1 : arg1.IsWhole) (arg2 : Memref sig .tc .vmem S128x256 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole)
    (x0 : Vec F S8192x128 .bf16) (x1 : Vec F S128x256 .f32) (x2 : Vec F S256x1 .i32) :
    out0_A_3 (F := F) c i arg1 harg1 arg2 harg2 arg3 harg3 arg4 harg4 arg5 harg5 x0 x1 x2
      = k0_pay4 (k0_pay5 (qrows i x0)) (k0_pay7 (qrows i x0) x0) (k0_pay8 (qrows i x0) x0) (k0_pay9 (qrows i x0) x0)
          (k0_pay11 x2 x1) (k0_pay12 x2 x1) := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_run_names
  rw [View.canon_unit_zero hz2]
  simp only [View.readAt_eq_ld, harg1.read_unread, harg2.read_unread, harg3.read_unread,
    View.ld_unit_zero (S := S8192x128) hz2, View.ld_unit_zero (S := S128x256) hz2, View.ld_unit_zero (S := S256x1) hz2]

/-- What the body leaves in the second output's block: the validity column, a function of the class table and the
    block's labels. -/
theorem out4_eq (c : Dev nD) (i : grid0.Coords) (arg1 : Memref sig .tc .vmem S8192x128 .bf16) (harg1 : arg1.IsWhole) (arg2 : Memref sig .tc .vmem S128x256 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S256x1 .f32) (harg5 : arg5.IsWhole)
    (x0 : Vec F S8192x128 .bf16) (x1 : Vec F S128x256 .f32) (x2 : Vec F S256x1 .i32) :
    out0_A_4 (F := F) c i arg1 harg1 arg2 harg2 arg3 harg3 arg4 harg4 arg5 harg5 x0 x1 x2
      = k0_pay3 (k0_pay12 x2 x1) := by
  unfold out0_A_4
  rw [View.read_writes_eq_canon _ _ _ (cover0_A_4 c i arg1 harg1 arg2 harg2 arg3 harg3 arg4 harg4 arg5 harg5 x0 x1 x2)]
  unfold kernelRun0_A
  dsimp only
  sl_unfold_run_names
  rw [View.canon_unit_zero hz2]
  simp only [View.readAt_eq_ld, harg2.read_unread, harg3.read_unread,
    View.ld_unit_zero (S := S128x256) hz2, View.ld_unit_zero (S := S256x1) hz2]

end Cert.KernelIdeal.Piece

end
-- ==== Proof.KernelBlocks.lean ====
/-
  From blocks to arrays. The grid has 32 points; point `t` reads the whole feature array, the whole class table and rows
  `256·t … 256·t + 255` of the label column, and writes back rows `256·t … 256·t + 255` of the two output columns. The 32
  row blocks tile the 8192 rows, so each output column after the run is, row by row, what the point owning that row left.
-/
import proofs.«108639_j90117003805311_2_alg».proof.Proof.KernelPiece
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Piece

variable {F : FTy → Type} [FloatOps F] [Named F]
variable (m : (ℓ : Loc nD τ sig) → Buf (Elt F) ℓ)

/-- The printed block-index maps over the grid: the two whole-array inputs never move, the label column and the two
    output columns are at row block `t`; and the body's own row offset is `256·t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ k0_off1 (grid0.coords t) (0 : Fin 2) = 256 * t.val ∧ k0_off1 (grid0.coords t) (1 : Fin 2) = 0 :=
  (by decide +kernel : ∀ t : Fin grid0.N, _)

/-- Row `256·t + p` as a row of the array. -/
abbrev row (t : Fin cfg0.N) (p : Fin 256) : Fin 8192 :=
  ⟨256 * t.val + p.val, by have := t.isLt; have hN : cfg0.N = 32 := N_0; have := p.isLt; omega⟩

/-- The body's 256 rows at point `t` are rows `256·t + p` of the array it reads them from. -/
theorem qrows_apply (t : Fin cfg0.N) (x0 : Vec F S8192x128 .bf16) (p : Fin 256) (d : Fin 128) :
    qrows (grid0.coords t) x0 (ix2 p d) = x0 (ix2 (row t p) d) := by
  obtain ⟨-, -, -, -, -, -, -, -, -, -, e0, e1⟩ := idx_facts t
  show x0 ((Rect.unit (s := S8192x128) (k0_off1 (grid0.coords t)) S256x128.size (k0_off1_inb (grid0.coords t))).idx (ix2 p d)) = _
  refine congrArg x0 ?_
  funext a; apply Fin.ext
  match a with
  | ⟨0, _⟩ => show k0_off1 (grid0.coords t) (0 : Fin 2) + 1 * p.val = 256 * t.val + p.val; rw [e0]; omega
  | ⟨1, _⟩ => show k0_off1 (grid0.coords t) (1 : Fin 2) + 1 * d.val = d.val; rw [e1]; omega

/-- Window 0's block at any point is the whole feature array. -/
theorem iblk0_apply (c : Dev nD) (t : Fin cfg0.N) (r : Fin 8192) (d : Fin 128) :
    (iblk m c 0 t : Vec F S8192x128 .bf16) (ix2 r d) = (V m c main_v0 : S8192x128.Idx → Elt F .bf16) (ix2 r d) := by
  obtain ⟨e0, e1, -⟩ := idx_facts t
  unfold iblk
  rw [View.read_apply]
  show V m c main_v0 (((cfg0.win 0).blk t).view.emb (ix2 r d)) = V m c main_v0 (ix2 r d)
  refine congrArg (V m c main_v0) ?_
  funext a; apply Fin.ext
  match a with
  | ⟨0, _⟩ => show win0_0.index t (0 : Fin 2) * 8192 + 1 * r.val = r.val; rw [e0]; omega
  | ⟨1, _⟩ => show win0_0.index t (1 : Fin 2) * 128 + 1 * d.val = d.val; rw [e1]; omega

/-- Window 1's block at any point is the whole class table. -/
theorem iblk1_apply (c : Dev nD) (t : Fin cfg0.N) (cl : Fin 128) (e : Fin 256) :
    (iblk m c 1 t : Vec F S128x256 .f32) (ix2 cl e) = (V m c main_v14 : S128x256.Idx → Elt F .f32) (ix2 cl e) := by
  obtain ⟨-, -, e0, e1, -⟩ := idx_facts t
  unfold iblk
  rw [View.read_apply]
  show V m c main_v14 (((cfg0.win 1).blk t).view.emb (ix2 cl e)) = V m c main_v14 (ix2 cl e)
  refine congrArg (V m c main_v14) ?_
  funext a; apply Fin.ext
  match a with
  | ⟨0, _⟩ => show win0_1.index t (0 : Fin 2) * 128 + 1 * cl.val = cl.val; rw [e0]; omega
  | ⟨1, _⟩ => show win0_1.index t (1 : Fin 2) * 256 + 1 * e.val = e.val; rw [e1]; omega

/-- Window 2's block at point `t` is rows `256·t + p` of the label column. -/
theorem iblk2_apply (c : Dev nD) (t : Fin cfg0.N) (p : Fin 256) (u : Fin 1) :
    (iblk m c 2 t : Vec F S256x1 .i32) (ix2 p u) = (V m c main_v1 : S8192x1.Idx → Elt F .i32) (ix2 (row t p) u) := by
  obtain ⟨-, -, -, -, e0, e1, -⟩ := idx_facts t
  unfold iblk
  rw [View.read_apply]
  show V m c main_v1 (((cfg0.win 2).blk t).view.emb (ix2 p u)) = V m c main_v1 (ix2 (row t p) u)
  refine congrArg (V m c main_v1) ?_
  funext a; apply Fin.ext
  match a with
  | ⟨0, _⟩ => show win0_2.index t (0 : Fin 2) * 256 + 1 * p.val = 256 * t.val + p.val; rw [e0]; omega
  | ⟨1, _⟩ => show win0_2.index t (1 : Fin 2) * 1 + 1 * u.val = u.val; rw [e1]; omega

/-! ## The first output column -/

/-- An index of the column is in point `t`'s block iff its row is in `256·t … 256·t + 255`. -/
theorem mem_blk3 (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v15_0).slice (win0_3.rect t)).set ↔ _
  rw [View.set_slice_whole, Rect.mem_set_unit]
  exact Iff.rfl

/-- Every row is in the block of the point `row / 256`. -/
theorem cover3 (i : S8192x1.Idx) : ∃ t : Fin cfg0.N, (cfg0.win 3).flush t = true ∧ i ∈ ((cfg0.win 3).blk t).view.set := by
  have hN : cfg0.N = 32 := N_0
  have hi0 : (i 0).val < 8192 := (i 0).isLt
  have hi1 : (i 1).val < 1 := (i 1).isLt
  let t : Fin cfg0.N := ⟨(i 0).val / 256, by omega⟩
  obtain ⟨-, -, -, -, -, -, e0, e1, -⟩ := idx_facts t
  refine ⟨t, flush0_3 t, ?_⟩
  rw [mem_blk3]
  intro a
  have ht : t.val = (i 0).val / 256 := rfl
  match a with
  | ⟨0, _⟩ => show win0_3.index t (0 : Fin 2) * 256 ≤ (i 0).val ∧ (i 0).val < win0_3.index t (0 : Fin 2) * 256 + 256; rw [e0]; omega
  | ⟨1, _⟩ => show win0_3.index t (1 : Fin 2) * 1 ≤ (i 1).val ∧ (i 1).val < win0_3.index t (1 : Fin 2) * 1 + 1; rw [e1]; omega

/-- If at every point the body leaves `g (256·t + p)` in row `p` of its first output block, then point `t` writes back
    block `t` of the column `g`. -/
theorem flushed3_eq (c : Dev nD) (g : Fin 8192 → Elt F .f32)
    (hg : ∀ (t : Fin cfg0.N) (p : Fin 256) (u : Fin 1), (outsAt0 m c t).1 (ix2 p u) = g (row t p)) (t : Fin cfg0.N) :
    (dats m 0 c).flushed 3 t = ((cfg0.win 3).blk t).view.read (Elt F) (fun j : S8192x1.Idx => g (j 0)) := by
  obtain ⟨-, -, -, -, -, -, e0, e1, -⟩ := idx_facts t
  show (cfg0.win 3).cut (grid0.coords t) ((dats m 0 c).after 3 t) = _
  rw [after0_3]
  funext y
  obtain ⟨p, u, rfl⟩ : ∃ (p : Fin 256) (u : Fin 1), y = ix2 p u := ⟨y 0, y 1, eq_ix2 y⟩
  show (outsAt0 m c t).1 (ix2 p u) = g ((((cfg0.win 3).blk t).view.emb (ix2 p u)) 0)
  rw [hg t p u]
  refine congrArg g (Fin.ext ?_)
  show 256 * t.val + p.val = win0_3.index t (0 : Fin 2) * 256 + 1 * p.val
  rw [e0]; omega

/-- The first output column after the run, row by row. -/
theorem final3 (c : Dev nD) (g : Fin 8192 → Elt F .f32)
    (hg : ∀ (t : Fin cfg0.N) (p : Fin 256) (u : Fin 1), (outsAt0 m c t).1 (ix2 p u) = g (row t p)) :
    (dats m 0 c).arrAt 3 cfg0.N = fun j : S8192x1.Idx => g (j 0) :=
  (dats m 0 c).arrAt_eq_of_cover 3 (fun j : S8192x1.Idx => g (j 0)) (fun t _ => flushed3_eq m c g hg t) cover3

/-! ## The second output column -/

theorem mem_blk4 (t : Fin cfg0.N) (i : S8192x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v15_1).slice (win0_4.rect t)).set ↔ _
  rw [View.set_slice_whole, Rect.mem_set_unit]
  exact Iff.rfl

theorem cover4 (i : S8192x1.Idx) : ∃ t : Fin cfg0.N, (cfg0.win 4).flush t = true ∧ i ∈ ((cfg0.win 4).blk t).view.set := by
  have hN : cfg0.N = 32 := N_0
  have hi0 : (i 0).val < 8192 := (i 0).isLt
  have hi1 : (i 1).val < 1 := (i 1).isLt
  let t : Fin cfg0.N := ⟨(i 0).val / 256, by omega⟩
  obtain ⟨-, -, -, -, -, -, -, -, e0, e1, -⟩ := idx_facts t
  refine ⟨t, flush0_4 t, ?_⟩
  rw [mem_blk4]
  intro a
  have ht : t.val = (i 0).val / 256 := rfl
  match a with
  | ⟨0, _⟩ => show win0_4.index t (0 : Fin 2) * 256 ≤ (i 0).val ∧ (i 0).val < win0_4.index t (0 : Fin 2) * 256 + 256; rw [e0]; omega
  | ⟨1, _⟩ => show win0_4.index t (1 : Fin 2) * 1 ≤ (i 1).val ∧ (i 1).val < win0_4.index t (1 : Fin 2) * 1 + 1; rw [e1]; omega

theorem flushed4_eq (c : Dev nD) (g : Fin 8192 → Elt F .f32)
    (hg : ∀ (t : Fin cfg0.N) (p : Fin 256) (u : Fin 1), (outsAt0 m c t).2 (ix2 p u) = g (row t p)) (t : Fin cfg0.N) :
    (dats m 0 c).flushed 4 t = ((cfg0.win 4).blk t).view.read (Elt F) (fun j : S8192x1.Idx => g (j 0)) := by
  obtain ⟨-, -, -, -, -, -, -, -, e0, e1, -⟩ := idx_facts t
  show (cfg0.win 4).cut (grid0.coords t) ((dats m 0 c).after 4 t) = _
  rw [after0_4]
  funext y
  obtain ⟨p, u, rfl⟩ : ∃ (p : Fin 256) (u : Fin 1), y = ix2 p u := ⟨y 0, y 1, eq_ix2 y⟩
  show (outsAt0 m c t).2 (ix2 p u) = g ((((cfg0.win 4).blk t).view.emb (ix2 p u)) 0)
  rw [hg t p u]
  refine congrArg g (Fin.ext ?_)
  show 256 * t.val + p.val = win0_4.index t (0 : Fin 2) * 256 + 1 * p.val
  rw [e0]; omega

/-- The second output column after the run, row by row. -/
theorem final4 (c : Dev nD) (g : Fin 8192 → Elt F .f32)
    (hg : ∀ (t : Fin cfg0.N) (p : Fin 256) (u : Fin 1), (outsAt0 m c t).2 (ix2 p u) = g (row t p)) :
    (dats m 0 c).arrAt 4 cfg0.N = fun j : S8192x1.Idx => g (j 0) :=
  (dats m 0 c).arrAt_eq_of_cover 4 (fun j : S8192x1.Idx => g (j 0)) (fun t _ => flushed4_eq m c g hg t) cover4

end Cert.KernelIdeal.Blocks

end
-- ==== Proof.LossSpec.lean ====
/-
  The supervised contrastive loss over the reals, in the two arrangements the two programs compute.

  Rows are indexed by `Fin 8192`, feature coordinates by `Fin 128`; `f r d` is the feature matrix, `lab r` the label
  of row `r` (a 32-bit word, compared for equality only).

  * The reference's arrangement (`sim`, `rowMax`, `sumExp`, `lse`, `pos`, `nPos`, `meanLogProb`, `valid`, `loss`):
    the full similarity matrix `(f fᵀ) / temp`, the row maximum, the sum of exponentials over the columns other than
    the row itself, the positives `lab c = lab r ∧ r ≠ c` as a 0/1 mask, the mean log-probability of the positives,
    and the mean over the rows that have a positive.
  * The kernel's arrangement for one row (`kSim` … `kOut`, `kValid`): the row `q` scaled by `invT` before the product,
    the diagonal term recomputed from `q` and subtracted from the full sum, and the positives' aggregate gathered
    from a per-class table `T` (class sums in columns `0 … 127`, class counts in columns `128 … 255`) by a one-hot row.
-/
import Mathlib.Analysis.SpecialFunctions.Log.Basic
import Mathlib.Analysis.SpecialFunctions.Exp

noncomputable section

namespace Cert.SupCon

open Finset

/-- The reference's temperature: the real number its 32-bit word denotes (the word nearest to one tenth). -/
def temp : ℝ := 13421773 / 134217728

/-- The kernel's scale: the exact reciprocal of `temp`. -/
def invT : ℝ := 134217728 / 13421773

theorem temp_mul_invT : temp * invT = 1 := by unfold temp invT; norm_num
theorem temp_ne_zero : temp ≠ 0 := by unfold temp; norm_num
theorem invT_eq : invT = 1 / temp := by unfold temp invT; norm_num

/-! ## The reference's arrangement -/

section Reference

variable (f : Fin 8192 → Fin 128 → ℝ) (lab : Fin 8192 → BitVec 32) (eps : ℝ)

/-- Similarity of rows `r` and `c`: their inner product over the temperature. -/
def sim (r c : Fin 8192) : ℝ := (∑ d : Fin 128, f r d * f c d) / temp

/-- The largest similarity in row `r`. -/
def rowMax (r : Fin 8192) : ℝ := (univ : Finset (Fin 8192)).sup' ⟨r, mem_univ r⟩ (sim f r)

/-- The mask that removes the diagonal. -/
def offDiag (r c : Fin 8192) : ℝ := if r = c then 0 else 1

/-- The sum of exponentials of the shifted similarities over the columns other than `r`. -/
def sumExp (r : Fin 8192) : ℝ := ∑ c : Fin 8192, Real.exp (sim f r c - rowMax f r) * offDiag r c

/-- Its logarithm, after adding `eps`. -/
def lse (r : Fin 8192) : ℝ := Real.log (sumExp f r + eps)

/-- The positives of row `r`: the other rows that carry its label, as a 0/1 mask. -/
def pos (r c : Fin 8192) : ℝ := if lab c = lab r ∧ r ≠ c then 1 else 0

/-- How many positives row `r` has. -/
def nPos (r : Fin 8192) : ℝ := ∑ c : Fin 8192, pos lab r c

/-- The mean log-probability of row `r`'s positives (the sum over at least one). -/
def meanLogProb (r : Fin 8192) : ℝ :=
  (∑ c : Fin 8192, pos lab r c * ((sim f r c - rowMax f r) - lse f eps r)) / max (nPos lab r) 1

/-- Whether row `r` has a positive, as 0/1. -/
def valid (r : Fin 8192) : ℝ := if 0 < nPos lab r then 1 else 0

/-- How many rows have a positive. -/
def nValid : ℝ := ∑ r : Fin 8192, valid lab r

/-- The loss: minus the mean, over the rows that have a positive, of their mean log-probability; zero when no row has one. -/
def loss : ℝ :=
  if 0 < nValid lab then (-(∑ r : Fin 8192, meanLogProb f lab eps r * valid lab r)) / max (nValid lab) 1 else 0

end Reference

/-! ## The kernel's arrangement -/

section Kernel

variable (f : Fin 8192 → Fin 128 → ℝ) (lab : Fin 8192 → BitVec 32) (eps : ℝ)

/-- Row `r`'s one-hot class indicator over the 128 table rows. -/
def onehot (l : BitVec 32) (c : Fin 128) : ℝ := if l = BitVec.ofNat 32 c.val then 1 else 0

/-- The per-class table: column `e < 128` of row `c` is the sum of coordinate `e` over the rows labelled `c`; every
    column `e ≥ 128` of row `c` is the number of rows labelled `c`. -/
def table (c : Fin 128) (e : Fin 256) : ℝ :=
  if h : e.val < 128 then ∑ b : Fin 8192, onehot (lab b) c * f b ⟨e.val, h⟩ else ∑ b : Fin 8192, onehot (lab b) c

variable (q : Fin 128 → ℝ) (l : BitVec 32) (T : Fin 128 → Fin 256 → ℝ)

/-- The scaled row against row `c`. -/
def kSim (c : Fin 8192) : ℝ := ∑ d : Fin 128, (q d * invT) * f c d

/-- Its largest entry. -/
def kMax : ℝ := (univ : Finset (Fin 8192)).sup' ⟨0, mem_univ _⟩ (kSim f q)

/-- The row's own (diagonal) shifted similarity, recomputed from the row. -/
def kDiagLogit : ℝ := (∑ d : Fin 128, q d * q d) * invT - kMax f q

/-- Logarithm of the full sum of exponentials minus the diagonal term, plus `eps`. -/
def kLse : ℝ :=
  Real.log (((∑ c : Fin 8192, Real.exp (kSim f q c - kMax f q)) - Real.exp (kDiagLogit f q)) + eps)

/-- The table row selected by the label, column `e`. -/
def kGather (e : Fin 256) : ℝ := ∑ c : Fin 128, onehot l c * T c e

/-- The number of rows carrying the label: the mean of the 128 equal count columns. -/
def kNSame : ℝ := (∑ e : Fin 128, kGather l T ⟨128 + e.val, by omega⟩) / 128

/-- The number of positives. -/
def kNPos : ℝ := kNSame l T - 1

/-- The sum of the positives' log-probabilities. -/
def kNum : ℝ :=
  ((((∑ d : Fin 128, q d * kGather l T ⟨d.val, by omega⟩) * invT - kNSame l T * kMax f q) - kDiagLogit f q)
    - kNPos l T * kLse f eps q)

/-- Whether the row has a positive, as 0/1: the second output. -/
def kValid : ℝ := if 0 < kNPos l T then 1 else 0

/-- The first output: minus the mean log-probability, masked. -/
def kOut : ℝ := (0 - kNum f eps q l T / max (kNPos l T) 1) * kValid l T

/-- The program's result from the two output columns. -/
def kLoss (out vld : Fin 8192 → ℝ) : ℝ :=
  if 0 < ∑ r : Fin 8192, vld r then (∑ r : Fin 8192, out r) / max (∑ r : Fin 8192, vld r) 1 else 0

end Kernel

end Cert.SupCon

end
-- ==== Proof.Consts.lean ====
/-
  The float words the two programs spell, as the extended reals they denote.
-/
import Idealize.ShloMosaic.PureOps.Ideal

noncomputable section

namespace Cert.Consts

open Idealize.ShloMosaic

/-- The zero word denotes `0`. -/
theorem ofBits_zero : Ideal.ofBits .f32 0x00000000#32 = 0 := by
  simp [Ideal.ofBits, Ideal.ieee]

/-- The word of `1.0` denotes `1`. -/
theorem ofBits_one : Ideal.ofBits .f32 0x3F800000#32 = ((1 : ℝ) : EReal) := by
  simp [Ideal.ofBits, Ideal.ieee, -EReal.coe_mul]; norm_num

/-- The word of `128.0` denotes `128`. -/
theorem ofBits_128 : Ideal.ofBits .f32 0x43000000#32 = ((128 : ℝ) : EReal) := by
  simp [Ideal.ofBits, Ideal.ieee, -EReal.coe_mul]; norm_num

/-- The reference's temperature word (the 32-bit float nearest one tenth) denotes `13421773 / 134217728`. -/
theorem ofBits_temp : Ideal.ofBits .f32 0x3DCCCCCD#32 = ((13421773 / 134217728 : ℝ) : EReal) := by
  simp [Ideal.ofBits, Ideal.ieee, -EReal.coe_mul]; norm_num

/-- The word of minus infinity denotes `⊥`. -/
theorem ofBits_neg_inf : Ideal.ofBits .f32 0xFF800000#32 = ⊥ := by
  simp [Ideal.ofBits, Ideal.ieee]

/-- The small constant added under the logarithm (the 32-bit float nearest `1e-12`), as a real. -/
def eps : ℝ := 9223372 / 9223372036854775808

theorem ofBits_eps : Ideal.ofBits .f32 0x2B8CBCCC#32 = ((eps : ℝ) : EReal) := by
  unfold eps
  simp [Ideal.ofBits, Ideal.ieee, -EReal.coe_mul]; norm_num

theorem eps_pos : 0 < eps := by unfold eps; norm_num

end Cert.Consts

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibQuantBlock.lean ====
/-
  A quantised weight block, read at an index.

  A matrix of `r` rows and `g · c` columns is stored as integers with one scale per row and per group of `c`
  consecutive columns.  Dequantising it is: read the integers signed, view the `[r, g · c]` array as `[r, g, c]`,
  view the `[r, g]` scales as `[r, g, 1]` and repeat each along the lane axis to `[r, g, c]`, multiply entry by
  entry, and view the product as `[r, g · c]` again.  Entry `(p, k)` of the result is the integer at `(p, k)`
  times the scale at `(p, k / c)`.  The scales may also arrive transposed, `[g, r]`.

  The layout steps are stated one by one at any extents (the two views between `[r, n]` and `[r, g, c]` with
  `n = g · c`: column `k = a · c + l` is lane `l` of group `a`; the trailing unit axis; the lane broadcast), then
  the whole term on the extended reals, with the scales as given or transposed, in the vector unit's spelling.
  A product `l · rᵀ` (second axes contracted) into a zero accumulator reads at `(q, d)` the sum over `p` of
  `l (q, p) · r (d, p)`, whatever the operands' float formats.
-/
import Idealize.ShloMosaic.PureOps.Ideal.Laws
import Idealize.ShloMosaic.Lib.ValueIdx
import Idealize.ShloMosaic.Lib.ValueLayout
import Idealize.ShloMosaic.Lib.Pipeline.Value
import proofs.«108639_j90117003805311_2_alg».proof.Proof.LibRowBlocks

noncomputable section

open scoped BigOperators

namespace Cert.QuantBlock

open Idealize.ShloMosaic Idealize.ShloMosaic.ValueIdx

variable {α : Type}

/-- `[r, n]` viewed `[r, g, c]` (`n = g · c`): entry `(q, a, l)` is column `k = a · c + l` of row `q`. -/
theorem shapeCast_splitCols_apply {r g c n : ℕ} (x : (⟨2, ![r, n]⟩ : Shape).Idx → α)
    (h : (⟨2, ![r, n]⟩ : Shape).ShapeCasts ⟨3, ![r, g, c]⟩) (q : Fin r) (a : Fin g) (l : Fin c) (k : Fin n)
    (hn : n = g * c) (hk : k.val = a.val * c + l.val) : shapeCast ⟨3, ![r, g, c]⟩ x h (ix3 q a l) = x (ix2 q k) :=
  shapeCast_apply x h _ _ (by
    rw [Shape.rowMajor_val_three, Shape.rowMajor_val_two]
    show q.val * n + k.val = (q.val * g + a.val) * c + l.val
    rw [hk, hn]; ring)

/-- `[r, g, c]` viewed `[r, n]` (`n = g · c`): column `k = a · c + l` of row `q` is entry `(q, a, l)`. -/
theorem shapeCast_mergeCols_apply {r g c n : ℕ} (x : (⟨3, ![r, g, c]⟩ : Shape).Idx → α)
    (h : (⟨3, ![r, g, c]⟩ : Shape).ShapeCasts ⟨2, ![r, n]⟩) (q : Fin r) (a : Fin g) (l : Fin c) (k : Fin n)
    (hn : n = g * c) (hk : k.val = a.val * c + l.val) : shapeCast ⟨2, ![r, n]⟩ x h (ix2 q k) = x (ix3 q a l) :=
  shapeCast_apply x h _ _ (by
    rw [Shape.rowMajor_val_three, Shape.rowMajor_val_two]
    show (q.val * g + a.val) * c + l.val = q.val * n + k.val
    rw [hk, hn]; ring)

/-- `[r, g]` viewed `[r, g, 1]`. -/
theorem shapeCast_unitLane_apply {r g : ℕ} (x : (⟨2, ![r, g]⟩ : Shape).Idx → α)
    (h : (⟨2, ![r, g]⟩ : Shape).ShapeCasts ⟨3, ![r, g, 1]⟩) (q : Fin r) (a : Fin g) (u : Fin 1) :
    shapeCast ⟨3, ![r, g, 1]⟩ x h (ix3 q a u) = x (ix2 q a) :=
  shapeCast_apply x h _ _ (by
    have hu : u.val = 0 := by omega
    rw [Shape.rowMajor_val_three, Shape.rowMajor_val_two]
    show q.val * g + a.val = (q.val * g + a.val) * 1 + u.val
    rw [hu]; ring)

/-- `[r, g, 1]` repeated along the lane axis to `[r, g, c]`. -/
theorem broadcastTo_lane_apply {r g c : ℕ} (x : (⟨3, ![r, g, 1]⟩ : Shape).Idx → α)
    (h : (⟨3, ![r, g, 1]⟩ : Shape).Broadcasts ⟨3, ![r, g, c]⟩) (q : Fin r) (a : Fin g) (l : Fin c) :
    broadcastTo ⟨3, ![r, g, c]⟩ x h (ix3 q a l) = x (ix3 q a (0 : Fin 1)) := by
  refine broadcastTo_apply x h (ix3 q a l) (ix3 q a (0 : Fin 1)) fun ax => ?_
  match ax with
  | ⟨0, _⟩ =>
    show q.val = if r = 1 then 0 else q.val
    split
    · have := q.isLt; omega
    · rfl
  | ⟨1, _⟩ =>
    show a.val = if g = 1 then 0 else a.val
    split
    · have := a.isLt; omega
    · rfl
  | ⟨2, _⟩ =>
    show (0 : ℕ) = if (1 : ℕ) = 1 then 0 else l.val
    rw [if_pos rfl]

/-- The group of a column. -/
abbrev grp {g c : ℕ} (k : Fin (g * c)) : Fin g :=
  ⟨k.val / c, Nat.div_lt_of_lt_mul (lt_of_lt_of_eq k.isLt (Nat.mul_comm g c))⟩

/-- THE DEQUANTISED BLOCK on the extended reals: the integer, read signed, times its row's and group's scale. -/
theorem dequant_apply {r g c : ℕ} (hc : 0 < c) (qw : IVec (⟨2, ![r, g * c]⟩ : Shape) 32) (s : FVec Ideal ⟨2, ![r, g]⟩ .f32)
    (h1 : (⟨2, ![r, g * c]⟩ : Shape).ShapeCasts ⟨3, ![r, g, c]⟩) (h2 : (⟨2, ![r, g]⟩ : Shape).ShapeCasts ⟨3, ![r, g, 1]⟩)
    (h3 : (⟨3, ![r, g, 1]⟩ : Shape).Broadcasts ⟨3, ![r, g, c]⟩) (h4 : (⟨3, ![r, g, c]⟩ : Shape).ShapeCasts ⟨2, ![r, g * c]⟩)
    (p : Fin r) (k : Fin (g * c)) :
    shapeCast ⟨2, ![r, g * c]⟩ (mulf (F := Ideal) (φ := .f32) (shapeCast ⟨3, ![r, g, c]⟩ (sitofp (F := Ideal) .f32 qw) h1)
      (broadcastTo ⟨3, ![r, g, c]⟩ (shapeCast ⟨3, ![r, g, 1]⟩ s h2) h3)) h4 (ix2 p k)
      = (((qw (ix2 p k)).toInt : ℝ) : EReal) * s (ix2 p (grp k)) := by
  have hk : k.val = (grp k).val * c + (⟨k.val % c, Nat.mod_lt _ hc⟩ : Fin c).val := (Nat.div_add_mod' k.val c).symm
  rw [shapeCast_mergeCols_apply _ h4 p (grp k) ⟨k.val % c, Nat.mod_lt _ hc⟩ k rfl hk]
  show FloatOps.mulf (shapeCast ⟨3, ![r, g, c]⟩ (sitofp (F := Ideal) .f32 qw) h1 (ix3 p (grp k) ⟨k.val % c, Nat.mod_lt _ hc⟩))
      (broadcastTo ⟨3, ![r, g, c]⟩ (shapeCast ⟨3, ![r, g, 1]⟩ s h2) h3 (ix3 p (grp k) ⟨k.val % c, Nat.mod_lt _ hc⟩)) = _
  rw [shapeCast_splitCols_apply _ h1 p (grp k) ⟨k.val % c, Nat.mod_lt _ hc⟩ k rfl hk, broadcastTo_lane_apply,
    shapeCast_unitLane_apply]
  rfl

/-- The same with the scales arriving transposed, `[g, r]`: the scale of row `p` and group `a` is entry `(a, p)`. -/
theorem dequantT_apply {r g c : ℕ} (hc : 0 < c) (qw : IVec (⟨2, ![r, g * c]⟩ : Shape) 32) (st : FVec Ideal ⟨2, ![g, r]⟩ .f32)
    (ht : (⟨2, ![g, r]⟩ : Shape).Transposes [1, 0] ⟨2, ![r, g]⟩)
    (h1 : (⟨2, ![r, g * c]⟩ : Shape).ShapeCasts ⟨3, ![r, g, c]⟩) (h2 : (⟨2, ![r, g]⟩ : Shape).ShapeCasts ⟨3, ![r, g, 1]⟩)
    (h3 : (⟨3, ![r, g, 1]⟩ : Shape).Broadcasts ⟨3, ![r, g, c]⟩) (h4 : (⟨3, ![r, g, c]⟩ : Shape).ShapeCasts ⟨2, ![r, g * c]⟩)
    (p : Fin r) (k : Fin (g * c)) :
    shapeCast ⟨2, ![r, g * c]⟩ (mulf (F := Ideal) (φ := .f32) (shapeCast ⟨3, ![r, g, c]⟩ (sitofp (F := Ideal) .f32 qw) h1)
      (broadcastTo ⟨3, ![r, g, c]⟩ (shapeCast ⟨3, ![r, g, 1]⟩ (transpose ⟨2, ![r, g]⟩ [1, 0] st ht) h2) h3)) h4 (ix2 p k)
      = (((qw (ix2 p k)).toInt : ℝ) : EReal) * st (ix2 (grp k) p) := by
  rw [dequant_apply hc qw (transpose ⟨2, ![r, g]⟩ [1, 0] st ht) h1 h2 h3 h4 p k, transpose_ix2_apply]

/-- `l · rᵀ` into a zero accumulator, whatever the operands' formats: at `(q, d)` the sum over `p` of `l (q, p) · r (d, p)`. -/
theorem matmul_abT_apply {M K N : ℕ} {φ₁ φ₂ : FTy} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ φ₁) (r : FVec Ideal ⟨2, ![N, K]⟩ φ₂)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (Cert.RowBlocks.abT_sum D h1 h2 h3 h4 h5 h6 l r q d)

end Cert.QuantBlock

end
-- ==== Proof.LibPoolFold.lean ====
/-
  Sums and maxima over the source entries that reduce to one result index, on the extended reals.

  A reduction along some axes of an array gathers, at a result index `j`, the source entries whose kept
  coordinates are `j`.  When a family `e : ι → source index` lists exactly those entries, each once
  (`e` injective, every `e p` reduces to `j`, every entry reducing to `j` is some `e p`), a reduction by
  addition is the sum over `ι` of the source at `e p` — for the vector unit's `multi_reduction <add>` and,
  with the starting value added, for the host's `reduce` with an `add` body.  Any number of axes may be
  reduced: the caller chooses `ι` (a product of coordinate ranges, say) and supplies the listing.

  `maxOver a f` is the greatest of `a` and the values `f p`.  It is determined by its upper bounds:
  `maxOver a f ≤ c` exactly when `a ≤ c` and `f p ≤ c` for every `p`.  So it depends only on the SET of
  values `f` takes (`maxOver_eq_of_values`), in particular not on how the family is indexed
  (`maxOver_comp_equiv`); `max` is commutative, associative and idempotent, and no finiteness of the entries
  is used: the laws hold at `+∞` and `-∞` as well.  A reduction by `maximum` — the vector unit's
  `multi_reduction <maximumf>` or the host's `reduce` with a `maximum` body, along any axes — read at a result
  index is `maxOver` over ANY family that lists the values of the source entries reducing to it.
  `rowMax_apply` is the one-axis case of an `[n, c]` array: the maximum of a row.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.PoolFold

open Idealize.ShloMosaic Idealize.ShloMosaic.ValueIdx

variable {ι κ : Type} [Fintype ι] [Fintype κ]

/-! ## Sums -/

/-- A sum over the members of a finite type that satisfy `P` is the sum over any family listing them once. -/
theorem sum_filter_eq_sum_family {α M : Type} [Fintype α] [AddCommMonoid M] (P : α → Prop) [DecidablePred P]
    (x : α → M) (e : ι → α) (hinj : Function.Injective e) (hP : ∀ p, P (e p)) (hsurj : ∀ i, P i → ∃ p, e p = i) :
    ∑ i ∈ Finset.univ.filter P, x i = ∑ p, x (e p) := by
  refine (Finset.sum_nbij e (fun p _ => Finset.mem_filter.mpr ⟨Finset.mem_univ _, hP p⟩) hinj.injOn
    (fun i hi => ?_) (fun _ _ => rfl)).symm
  obtain ⟨p, rfl⟩ := hsurj i (Finset.mem_filter.mp (Finset.mem_coe.mp hi)).2
  exact ⟨p, Finset.mem_coe.mpr (Finset.mem_univ p), rfl⟩

/-- The vector unit's reduction by addition, at a result index `j`: the sum of the source over a family
    listing once each entry whose kept coordinates are `j`. -/
theorem multiReduction_add_eq_sum {s t : Shape} {φ : FTy} {axes : List (Fin s.rank)} (src : FVec Ideal s φ)
    (acc : BitVec φ.bits) (h : s.Reduces axes t) (hφ : FKind.Formats φ) (hacc : acc = FKind.add.neutral φ hφ)
    (j : t.Idx) (e : ι → s.Idx) (hinj : Function.Injective e) (hdrop : ∀ p, h.drop (e p) = j)
    (hsurj : ∀ i, h.drop i = j → ∃ p, e p = i) :
    multiReduction .add axes t src acc h hφ hacc j = ∑ p, src (e p) :=
  sum_filter_eq_sum_family (fun i => h.drop i = j) src e hinj hdrop hsurj

/-- The host's one-operand reduction with an `add` body, likewise, from its starting value's one entry. -/
theorem hostReduceAdd_eq_sum {s t u : Shape} {φ : FTy} {axes : List (Fin s.rank)} (x : FVec Ideal s φ)
    (init : FVec Ideal u φ) (h : s.ReducesTo axes t) (hu : 0 < u.numel) (j : t.Idx) (e : ι → s.Idx)
    (hinj : Function.Injective e) (hdrop : ∀ p, h.drop (e p) = j) (hsurj : ∀ i, h.drop i = j → ∃ p, e p = i) :
    Host.reduceAdd x init h hu j = init (Shape.Idx.first hu) + ∑ p, x (e p) :=
  congrArg (init (Shape.Idx.first hu) + ·) (sum_filter_eq_sum_family (fun i => h.drop i = j) x e hinj hdrop hsurj)

/-! ## Maxima -/

/-- The greatest of `a` and the values `f p`, `p` ranging over a finite type. -/
def maxOver (a : EReal) (f : ι → EReal) : EReal := (Finset.univ : Finset ι).fold max a f

/-- Its upper bounds: those of `a` that are upper bounds of every `f p`. -/
theorem maxOver_le_iff (a : EReal) (f : ι → EReal) (c : EReal) : maxOver a f ≤ c ↔ a ≤ c ∧ ∀ p, f p ≤ c := by
  unfold maxOver
  rw [Finset.fold_max_le]
  exact and_congr_right fun _ => ⟨fun h p => h p (Finset.mem_univ p), fun h p _ => h p⟩

/-- A value with those upper bounds is the maximum. -/
theorem eq_maxOver_of_le_iff {v a : EReal} {f : ι → EReal} (h : ∀ c, v ≤ c ↔ a ≤ c ∧ ∀ p, f p ≤ c) :
    v = maxOver a f :=
  eq_of_forall_ge_iff fun c => (h c).trans (maxOver_le_iff a f c).symm

/-- A fold of `max` from `a` over the members of a finite type that satisfy `P` is `maxOver a f`, for any
    family `f` taking exactly the values `x` takes on those members. -/
theorem fold_max_filter_eq_maxOver {α : Type} [Fintype α] (P : α → Prop) [DecidablePred P] (a : EReal)
    (x : α → EReal) (f : ι → EReal) (h1 : ∀ p, ∃ i, P i ∧ x i = f p) (h2 : ∀ i, P i → ∃ p, f p = x i) :
    (Finset.univ.filter P).fold max a x = maxOver a f := by
  refine eq_maxOver_of_le_iff fun c => ?_
  rw [Finset.fold_max_le]
  refine and_congr_right fun _ => ⟨fun h p => ?_, fun h i hi => ?_⟩
  · obtain ⟨i, hi, e⟩ := h1 p
    exact e ▸ h i (Finset.mem_filter.mpr ⟨Finset.mem_univ i, hi⟩)
  · obtain ⟨p, e⟩ := h2 i (Finset.mem_filter.mp hi).2
    exact e ▸ h p

/-- The maximum depends only on the values taken. -/
theorem maxOver_eq_of_values (a : EReal) (f : ι → EReal) (g : κ → EReal) (h1 : ∀ q, ∃ p, f p = g q)
    (h2 : ∀ p, ∃ q, g q = f p) : maxOver a f = maxOver a g := by
  refine eq_maxOver_of_le_iff fun c => ?_
  rw [maxOver_le_iff]
  refine and_congr_right fun _ => ⟨fun h q => ?_, fun h p => ?_⟩
  · obtain ⟨p, e⟩ := h1 q; exact e ▸ h p
  · obtain ⟨q, e⟩ := h2 p; exact e ▸ h q

/-- Re-indexing the family along a bijection does not change the maximum. -/
theorem maxOver_comp_equiv (a : EReal) (e : ι ≃ κ) (g : κ → EReal) : maxOver a (fun p => g (e p)) = maxOver a g :=
  maxOver_eq_of_values a _ g (fun q => ⟨e.symm q, by rw [e.apply_symm_apply]⟩) (fun p => ⟨e p, rfl⟩)

/-- Pointwise equal families have equal maxima. -/
theorem maxOver_congr (a : EReal) {f g : ι → EReal} (h : ∀ p, f p = g p) : maxOver a f = maxOver a g :=
  congrArg (maxOver a) (funext h)

/-- The vector unit's reduction by maximum, at a result index `j`, on the extended reals: the greatest of
    its starting value and the source entries whose kept coordinates are `j`, listed by any family `f`. -/
theorem multiReduction_max_eq_maxOver {s t : Shape} {φ : FTy} {axes : List (Fin s.rank)} (src : FVec Ideal s φ)
    (acc : BitVec φ.bits) (h : s.Reduces axes t) (hφ : FKind.Formats φ) (hacc : acc = FKind.maximumf.neutral φ hφ)
    (j : t.Idx) (f : ι → EReal) (h1 : ∀ p, ∃ i, h.drop i = j ∧ src i = f p)
    (h2 : ∀ i, h.drop i = j → ∃ p, f p = src i) :
    multiReduction .maximumf axes t src acc h hφ hacc j = maxOver (Ideal.ofBits φ acc) f := by
  rw [multiReduction_maximumf_eq_fold]
  exact fold_max_filter_eq_maxOver (fun i => h.drop i = j) _ src f h1 h2

/-- The host's one-operand reduction with a `maximum` body, likewise, from its starting value's one entry. -/
theorem hostReduce_max_eq_maxOver {s t u : Shape} {φ : FTy} {axes : List (Fin s.rank)} (x : FVec Ideal s φ)
    (init : FVec Ideal u φ) (h : s.ReducesTo axes t) (hu : 0 < u.numel) (j : t.Idx) (f : ι → EReal)
    (h1 : ∀ p, ∃ i, h.drop i = j ∧ x i = f p) (h2 : ∀ i, h.drop i = j → ∃ p, f p = x i) :
    Host.reduce (FloatOps.maximumf (F := Ideal) (φ := φ)) x init h hu j = maxOver (init (Shape.Idx.first hu)) f := by
  rw [Host.reduce_eq_fold]
  exact fold_max_filter_eq_maxOver (fun i => h.drop i = j) _ x f h1 h2

/-- The maximum of an `[n, c]` array along its second axis, started from -∞ (the word `0xFF800000`), reads, at
    row `q`, the greatest of -∞ and the row's entries. -/
theorem rowMax_apply {n c : ℕ} (src : FVec Ideal ⟨2, ![n, c]⟩ .f32)
    (h : (⟨2, ![n, c]⟩ : Shape).Reduces [1] ⟨1, ![n]⟩) (hφ : FKind.Formats .f32)
    (hacc : (0xFF800000#32 : BitVec 32) = 0xFF800000#32) (q : Fin n) :
    multiReduction .maximumf [1] ⟨1, ![n]⟩ src 0xFF800000#32 h hφ hacc (ix1 q)
      = maxOver (Ideal.ofBits .f32 0xFF800000#32) (fun k : Fin c => src (ix2 q k)) := by
  refine (Ideal.multiReduction_maximumf_single src 0xFF800000#32 h hφ hacc (ix1 q)).trans ?_
  unfold maxOver
  refine congrArg (fun g => (Finset.univ : Finset (Fin c)).fold max (Ideal.ofBits .f32 0xFF800000#32) g) (funext fun k => ?_)
  refine congrArg src (funext fun ax => Fin.ext ?_)
  match ax with
  | ⟨0, _⟩ => rfl
  | ⟨1, _⟩ => rfl

end Cert.PoolFold

end
-- ==== Proof.KernelRow1.lean ====
/-
  The kernel body's first payloads at a row, on the extended reals: the scale, the widened block of rows, the
  block of similarities, its row maximum and the row's own shifted similarity.
-/
import proofs.«108639_j90117003805311_2_alg».proof.KernelIdeal
import proofs.«108639_j90117003805311_2_alg».proof.Proof.Gen.KernelIdeal.Skeleton
import proofs.«108639_j90117003805311_2_alg».proof.Proof.LossSpec
import proofs.«108639_j90117003805311_2_alg».proof.Proof.Consts
import proofs.«108639_j90117003805311_2_alg».proof.Proof.LibQuantBlock
import proofs.«108639_j90117003805311_2_alg».proof.Proof.LibRowBlocks
import proofs.«108639_j90117003805311_2_alg».proof.Proof.LibPoolFold
import Idealize.ShloMosaic.PureOps.IdealRules

noncomputable section

open scoped BigOperators

namespace Cert.KernelIdeal.Row

open Cert.KernelIdeal Cert.KernelIdeal.Gen Idealize.ShloMosaic Idealize.ShloMosaic.ValueIdx Cert.SupCon

variable [Cert.KernelIdeal.Facts]

/-- The named scale denotes the exact reciprocal of the temperature. -/
theorem named_invT :
    Named.named (F := Ideal) Cert.KernelIdeal.κ "inv_t" (φ := .f32) 0x41200000#32 = ((invT : ℝ) : EReal) :=
  IdealRules.named_const.ideal_named_scalar _ _ _ _ rfl

/-- A finite sum of reals, read in the extended reals, is the sum of the summands read there. -/
theorem coe_sum {ι : Type} (s : Finset ι) (g : ι → ℝ) :
    ((∑ i ∈ s, g i : ℝ) : EReal) = ∑ i ∈ s, ((g i : ℝ) : EReal) := by
  classical
  refine Finset.induction_on s (by simp) fun a s ha ih => ?_
  rw [Finset.sum_insert ha, Finset.sum_insert ha, EReal.coe_add, ih]

section
variable (v3 : Vec Ideal S256x128 .bf16) (v5 : Vec Ideal S8192x128 .bf16)
  (f : Fin 8192 → Fin 128 → ℝ) (qs : Fin 256 → Fin 128 → ℝ)
  (h3 : ∀ (p : Fin 256) (d : Fin 128), v3 (ValueIdx.ix2 p d) = ((qs p d : ℝ) : EReal))
  (h5 : ∀ (c : Fin 8192) (d : Fin 128), v5 (ValueIdx.ix2 c d) = ((f c d : ℝ) : EReal))

include h3 in
/-- The widened block of rows reads the rows themselves: the cast to the same shape and the change of format are identities. -/
theorem pay5_apply (p : Fin 256) (d : Fin 128) :
    k0_pay5 (F := Ideal) v3 (ValueIdx.ix2 p d) = ((qs p d : ℝ) : EReal) := by
  unfold k0_pay5
  show shapeCast S256x128 v3 shapeCasts_S256x128_S256x128 (ix2 p d) = _
  rw [shapeCast_self]
  exact h3 p d

include h3 h5 in
/-- The similarity block at `(p, c)`: the scaled row `p` against row `c`. -/
theorem pay6_apply (p : Fin 256) (c : Fin 8192) :
    k0_pay6 (F := Ideal) v3 v5 (ValueIdx.ix2 p c) = ((kSim f (qs p) c : ℝ) : EReal) := by
  unfold k0_pay6
  refine (Cert.QuantBlock.matmul_abT_apply dot_S256x128_S8192x128_S256x8192_1_1_0_0_n_n rfl rfl rfl rfl rfl rfl none _ _ p c).trans ?_
  unfold kSim
  rw [coe_sum]
  refine Finset.sum_congr rfl fun d _ => ?_
  show (k0_pay5 (F := Ideal) v3 (ix2 p d) * Named.named (F := Ideal) Cert.KernelIdeal.κ "inv_t" (φ := .f32) 0x41200000#32)
      * shapeCast S8192x128 v5 shapeCasts_S8192x128_S8192x128 (ix2 c d) = _
  rw [shapeCast_self, pay5_apply v3 qs h3 p d, named_invT, h5 c d, ← EReal.coe_mul, ← EReal.coe_mul]

/-- The greatest of `-∞` and a nonempty finite family of reals is the family's greatest member. -/
theorem maxOver_bot_coe {n : ℕ} (g : Fin (n + 1) → ℝ) :
    Cert.PoolFold.maxOver ⊥ (fun k : Fin (n + 1) => ((g k : ℝ) : EReal))
      = (((Finset.univ : Finset (Fin (n + 1))).sup' ⟨0, Finset.mem_univ _⟩ g : ℝ) : EReal) := by
  refine le_antisymm ?_ ?_
  · rw [Cert.PoolFold.maxOver_le_iff]
    exact ⟨bot_le, fun k => EReal.coe_le_coe_iff.mpr (Finset.le_sup' g (Finset.mem_univ k))⟩
  · obtain ⟨k, _, hk⟩ := Finset.exists_mem_eq_sup' (⟨0, Finset.mem_univ _⟩ : (Finset.univ : Finset (Fin (n + 1))).Nonempty) g
    rw [hk]
    exact ((Cert.PoolFold.maxOver_le_iff ⊥ (fun k : Fin (n + 1) => ((g k : ℝ) : EReal)) _).mp le_rfl).2 k

include h3 h5 in
/-- The row maximum, as a column: the greatest similarity of the scaled row `p`. -/
theorem pay7_apply (p : Fin 256) :
    k0_pay7 (F := Ideal) v3 v5 (ValueIdx.ix2 p (0 : Fin 1)) = ((kMax f (qs p) : ℝ) : EReal) := by
  unfold k0_pay7
  refine (Cert.RowBlocks.shapeCast_col_apply _ _ p (0 : Fin 1)).trans ?_
  refine (Cert.PoolFold.rowMax_apply (k0_pay6 (F := Ideal) v3 v5) _ _ _ p).trans ?_
  rw [Cert.Consts.ofBits_neg_inf]
  rw [show (fun k : Fin 8192 => k0_pay6 (F := Ideal) v3 v5 (ix2 p k)) = fun k : Fin 8192 => ((kSim f (qs p) k : ℝ) : EReal) from
    funext fun k => pay6_apply v3 v5 f qs h3 h5 p k]
  exact maxOver_bot_coe (n := 8191) (kSim f (qs p))

include h3 h5 in
/-- The row's own shifted similarity: its squared norm times the scale, minus the row maximum. -/
theorem pay8_apply (p : Fin 256) :
    k0_pay8 (F := Ideal) v3 v5 (ValueIdx.ix2 p (0 : Fin 1)) = ((kDiagLogit f (qs p) : ℝ) : EReal) := by
  unfold k0_pay8
  show shapeCast S256x1 (multiReduction .add [1] S256 (mulf (k0_pay5 (F := Ideal) v3) (k0_pay5 (F := Ideal) v3)) 0x00000000#32
        reduces_S256x128_S256 (.inl rfl) rfl) shapeCasts_S256_S256x1 (ix2 p (0 : Fin 1))
      * Named.named (F := Ideal) Cert.KernelIdeal.κ "inv_t" (φ := .f32) 0x41200000#32
      - k0_pay7 (F := Ideal) v3 v5 (ix2 p (0 : Fin 1)) = _
  rw [pay7_apply v3 v5 f qs h3 h5 p, named_invT, Cert.RowBlocks.shapeCast_col_apply _ _ p (0 : Fin 1)]
  rw [Cert.RowBlocks.rowSum_apply _ _ _ _ p]
  unfold kDiagLogit
  rw [EReal.coe_sub, EReal.coe_mul, coe_sum]
  refine congrArg (fun z => z * ((invT : ℝ) : EReal) - ((kMax f (qs p) : ℝ) : EReal)) (Finset.sum_congr rfl fun d _ => ?_)
  show k0_pay5 (F := Ideal) v3 (ix2 p d) * k0_pay5 (F := Ideal) v3 (ix2 p d) = _
  rw [pay5_apply v3 qs h3 p d, ← EReal.coe_mul]

end

end Cert.KernelIdeal.Row

end
-- ==== Proof.KernelRow2.lean ====
/-
  The kernel body's logarithm payload at a row, on the extended reals: the logarithm of the full sum of
  exponentials of the shifted similarities, minus the diagonal term, plus the small constant.
-/
import proofs.«108639_j90117003805311_2_alg».proof.Proof.KernelRow1

noncomputable section

open scoped BigOperators

namespace Cert.KernelIdeal.Row

open Cert.KernelIdeal Cert.KernelIdeal.Gen Idealize.ShloMosaic Idealize.ShloMosaic.ValueIdx Cert.SupCon

variable [Cert.KernelIdeal.Facts]

/-- For a row of the matrix itself, the recomputed diagonal term is the row's own shifted similarity. -/
theorem kDiagLogit_self (f : Fin 8192 → Fin 128 → ℝ) (r : Fin 8192) :
    kDiagLogit f (f r) = kSim f (f r) r - kMax f (f r) := by
  unfold kDiagLogit kSim
  rw [Finset.sum_mul]
  refine congrArg (fun z => z - kMax f (f r)) (Finset.sum_congr rfl fun d _ => ?_)
  ring

/-- The argument of the logarithm is positive: the full sum minus the diagonal term is the sum over the other
    columns, which is nonnegative, and the small constant is positive. -/
theorem kLse_arg_pos (f : Fin 8192 → Fin 128 → ℝ) (r : Fin 8192) :
    0 < ((∑ c : Fin 8192, Real.exp (kSim f (f r) c - kMax f (f r))) - Real.exp (kDiagLogit f (f r))) + Cert.Consts.eps := by
  rw [kDiagLogit_self]
  have h := Finset.add_sum_erase Finset.univ (fun c : Fin 8192 => Real.exp (kSim f (f r) c - kMax f (f r))) (Finset.mem_univ r)
  have h2 : 0 ≤ ∑ c ∈ (Finset.univ : Finset (Fin 8192)).erase r, Real.exp (kSim f (f r) c - kMax f (f r)) :=
    Finset.sum_nonneg fun c _ => (Real.exp_pos _).le
  have h3 := Cert.Consts.eps_pos
  linarith

section
variable (v3 : Vec Ideal S256x128 .bf16) (v5 : Vec Ideal S8192x128 .bf16)
  (f : Fin 8192 → Fin 128 → ℝ) (qs : Fin 256 → Fin 128 → ℝ)
  (h3 : ∀ (p : Fin 256) (d : Fin 128), v3 (ValueIdx.ix2 p d) = ((qs p d : ℝ) : EReal))
  (h5 : ∀ (c : Fin 8192) (d : Fin 128), v5 (ValueIdx.ix2 c d) = ((f c d : ℝ) : EReal))

include h3 h5 in
/-- The exponential of the shifted similarity block at `(p, c)`. -/
theorem expShift_apply (p : Fin 256) (c : Fin 8192) :
    (exp (subf (k0_pay6 (F := Ideal) v3 v5)
        (broadcastTo S256x8192 (k0_pay7 (F := Ideal) v3 v5) broadcasts_S256x1_S256x8192)) : FVec Ideal S256x8192 .f32) (ix2 p c)
      = ((Real.exp (kSim f (qs p) c - kMax f (qs p)) : ℝ) : EReal) := by
  show Ideal.exp (k0_pay6 (F := Ideal) v3 v5 (ix2 p c)
      - broadcastTo S256x8192 (k0_pay7 (F := Ideal) v3 v5) broadcasts_S256x1_S256x8192 (ix2 p c)) = _
  rw [Cert.RowBlocks.broadcastTo_col_apply _ _ p c, pay6_apply v3 v5 f qs h3 h5 p c, pay7_apply v3 v5 f qs h3 h5 p,
    ← EReal.coe_sub, Ideal.exp_coe]

include h3 h5 in
/-- The logarithm payload, for a row that is one of the matrix's rows. -/
theorem pay9_apply (p : Fin 256) (r : Fin 8192) (hr : qs p = f r) :
    k0_pay9 (F := Ideal) v3 v5 (ValueIdx.ix2 p (0 : Fin 1)) = ((kLse f Cert.Consts.eps (qs p) : ℝ) : EReal) := by
  unfold k0_pay9
  show Ideal.log ((shapeCast S256x1 (multiReduction .add [1] S256
          (exp (subf (k0_pay6 (F := Ideal) v3 v5) (broadcastTo S256x8192 (k0_pay7 (F := Ideal) v3 v5) broadcasts_S256x1_S256x8192)))
          0x00000000#32 reduces_S256x8192_S256 (.inl rfl) rfl) shapeCasts_S256_S256x1 (ix2 p (0 : Fin 1))
        - Ideal.exp (k0_pay8 (F := Ideal) v3 v5 (ix2 p (0 : Fin 1))))
        + Ideal.ofBits .f32 0x2B8CBCCC#32) = _
  rw [Cert.RowBlocks.shapeCast_col_apply _ _ p (0 : Fin 1), Cert.RowBlocks.rowSum_apply _ _ _ _ p,
    pay8_apply v3 v5 f qs h3 h5 p, Cert.Consts.ofBits_eps, Ideal.exp_coe]
  rw [show (∑ k : Fin 8192, (exp (subf (k0_pay6 (F := Ideal) v3 v5)
        (broadcastTo S256x8192 (k0_pay7 (F := Ideal) v3 v5) broadcasts_S256x1_S256x8192)) : FVec Ideal S256x8192 .f32) (ix2 p k))
      = ((∑ k : Fin 8192, Real.exp (kSim f (qs p) k - kMax f (qs p)) : ℝ) : EReal) from by
    rw [coe_sum]
    exact Finset.sum_congr rfl fun k _ => expShift_apply v3 v5 f qs h3 h5 p k]
  rw [← EReal.coe_sub, ← EReal.coe_add, Ideal.log_coe, if_neg (not_le.mpr (by rw [hr]; exact kLse_arg_pos f r))]
  rfl

end

end Cert.KernelIdeal.Row

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.KernelRow3.lean ====
/-
  The kernel body's gather at a row, on the extended reals: the one-hot row of the label against the class
  table, and the two halves of the product (the class sums and the class counts).
-/
import proofs.«108639_j90117003805311_2_alg».proof.Proof.KernelRow1
import proofs.«108639_j90117003805311_2_alg».proof.Proof.LibDense

noncomputable section

open scoped BigOperators

namespace Cert.KernelIdeal.Row

open Cert.KernelIdeal Cert.KernelIdeal.Gen Idealize.ShloMosaic Idealize.ShloMosaic.ValueIdx Cert.SupCon

variable [Cert.KernelIdeal.Facts]

/-- The comparison of a label with a class number, widened to a word and read as a signed integer, is the
    one-hot indicator. -/
theorem onehot_word (l : BitVec 32) (k : Fin 128) :
    ((((IntOp.cmpi .eq l (BitVec.ofNat 32 k.val)).setWidth 32).toInt : ℝ) : EReal) = ((onehot l k : ℝ) : EReal) := by
  unfold onehot IntOp.cmpi
  by_cases h : l = BitVec.ofNat 32 k.val
  · rw [if_pos h]
    have hb : (l == BitVec.ofNat 32 k.val) = true := by simp [h]
    have h1 : ((BitVec.ofBool true).setWidth 32).toInt = 1 := by decide
    simp only [hb, h1]
    norm_num
  · rw [if_neg h]
    have hb : (l == BitVec.ofNat 32 k.val) = false := by simp [h]
    have h0 : ((BitVec.ofBool false).setWidth 32).toInt = 0 := by decide
    simp only [hb, h0]
    norm_num

section
variable (v30 : Vec Ideal S256x1 .i32) (v37 : Vec Ideal S128x256 .f32)
  (ls : Fin 256 → BitVec 32) (T : Fin 128 → Fin 256 → ℝ)
  (h30 : ∀ p : Fin 256, v30 (ValueIdx.ix2 p (0 : Fin 1)) = ls p)
  (h37 : ∀ (c : Fin 128) (e : Fin 256), v37 (ValueIdx.ix2 c e) = ((T c e : ℝ) : EReal))

include h30 h37 in
/-- The one-hot row of row `p`'s label times the class table, at column `e`. -/
theorem pay10_apply (p : Fin 256) (e : Fin 256) :
    k0_pay10 (F := Ideal) v30 v37 (ValueIdx.ix2 p e) = ((kGather (ls p) T e : ℝ) : EReal) := by
  unfold k0_pay10
  show matmul (F := Ideal) dot_S256x128_S128x256_S256x256_1_0_0_1_n_n (some .fp32) _ _ (constant S256x256 .f32 0x00000000#32) (ix2 p e) = _
  rw [Cert.Dense.matmul_zero_eq_mm dot_S256x128_S128x256_S256x256_1_0_0_1_n_n rfl rfl rfl rfl rfl rfl, Cert.Dense.mm_apply]
  unfold kGather
  rw [coe_sum]
  refine Finset.sum_congr rfl fun k _ => ?_
  rw [shapeCast_self v37, h37 k e, EReal.coe_mul]
  refine congrArg (fun z => z * ((T k e : ℝ) : EReal)) ?_
  show ((((IntOp.cmpi .eq (broadcastTo S256x128 (shapeCast S256x1 v30 shapeCasts_S256x1_S256x1) broadcasts_S256x1_S256x128 (ix2 p k))
      (iota .tc S256x128 32 [1] iota_S256x128_d1_w32 (ix2 p k))).setWidth 32).toInt : ℝ) : EReal) = _
  rw [Cert.RowBlocks.broadcastTo_col_apply _ _ p k, shapeCast_self v30, h30 p, iota_single_apply]
  exact onehot_word (ls p) k

include h30 h37 in
/-- The first half of the product: the label's class sums. -/
theorem pay11_apply (p : Fin 256) (d : Fin 128) :
    k0_pay11 (F := Ideal) v30 v37 (ValueIdx.ix2 p d) = ((kGather (ls p) T ⟨d.val, by omega⟩ : ℝ) : EReal) := by
  unfold k0_pay11
  refine (slice2_axis1_apply 0 _ _ p d (⟨d.val, by omega⟩ : Fin 256) (by simp)).trans ?_
  exact pay10_apply v30 v37 ls T h30 h37 p _

include h30 h37 in
/-- The second half of the product: the label's class count, in every column. -/
theorem pay12_apply (p : Fin 256) (e : Fin 128) :
    k0_pay12 (F := Ideal) v30 v37 (ValueIdx.ix2 p e) = ((kGather (ls p) T ⟨128 + e.val, by omega⟩ : ℝ) : EReal) := by
  unfold k0_pay12
  refine (slice2_axis1_apply 128 _ _ p e (⟨128 + e.val, by omega⟩ : Fin 256) rfl).trans ?_
  exact pay10_apply v30 v37 ls T h30 h37 p _

end

end Cert.KernelIdeal.Row

end
-- ==== Proof.KernelRow4.lean ====
/-
  The kernel body's final arithmetic at a row, on the extended reals: the class count, the number of positives,
  the validity flag and the masked mean log-probability, from the row's earlier quantities.
-/
import proofs.«108639_j90117003805311_2_alg».proof.Proof.KernelRow1

noncomputable section

open scoped BigOperators

namespace Cert.KernelIdeal.Row

open Cert.KernelIdeal Cert.KernelIdeal.Gen Idealize.ShloMosaic Idealize.ShloMosaic.ValueIdx Cert.SupCon

variable [Cert.KernelIdeal.Facts]

/-- The maximum of two reals, read in the extended reals, is the maximum there. -/
theorem coe_max' (a b : ℝ) : max ((a : ℝ) : EReal) ((b : ℝ) : EReal) = ((max a b : ℝ) : EReal) :=
  (EReal.coe_strictMono.monotone.map_max).symm

/-- The comparison "greater than zero" of a real, widened to a word and read as a signed integer, is the 0/1 flag. -/
theorem gt_word (x : ℝ) :
    ((((Ideal.cmp .ogt ((x : ℝ) : EReal) 0).setWidth 32).toInt : ℝ) : EReal) = (((if 0 < x then 1 else 0 : ℝ)) : EReal) := by
  unfold Ideal.cmp
  by_cases h : 0 < x
  · rw [if_pos h]
    have hb : decide ((0 : EReal) < ((x : ℝ) : EReal)) = true := decide_eq_true (EReal.coe_pos.mpr h)
    have h1 : ((BitVec.ofBool true).setWidth 32).toInt = 1 := by decide
    simp only [hb, h1]
    norm_num
  · rw [if_neg h]
    have hb : decide ((0 : EReal) < ((x : ℝ) : EReal)) = false := decide_eq_false (fun h' => h (EReal.coe_pos.mp h'))
    have h0 : ((BitVec.ofBool false).setWidth 32).toInt = 0 := by decide
    simp only [hb, h0]
    norm_num

section
variable (l : BitVec 32) (T : Fin 128 → Fin 256 → ℝ) (v41 : FVec Ideal S256x128 .f32) (p : Fin 256)
  (h41 : ∀ e : Fin 128, v41 (ValueIdx.ix2 p e) = ((kGather l T ⟨128 + e.val, by omega⟩ : ℝ) : EReal))

include h41 in
/-- The class count: the mean of the 128 equal count columns. -/
theorem pay1_apply : k0_pay1 (F := Ideal) v41 (ValueIdx.ix2 p (0 : Fin 1)) = ((kNSame l T : ℝ) : EReal) := by
  unfold k0_pay1
  show Ideal.div (shapeCast S256x1 (multiReduction .add [1] S256 v41 0x00000000#32 reduces_S256x128_S256 (.inl rfl) rfl)
      shapeCasts_S256_S256x1 (ix2 p (0 : Fin 1))) (Ideal.ofBits .f32 0x43000000#32) = _
  rw [Cert.RowBlocks.shapeCast_col_apply _ _ p (0 : Fin 1), Cert.RowBlocks.rowSum_apply _ _ _ _ p, Cert.Consts.ofBits_128,
    Ideal.div_coe (by norm_num : (128 : ℝ) ≠ 0)]
  unfold kNSame
  rw [show (∑ k : Fin 128, v41 (ix2 p k)) = ((∑ e : Fin 128, kGather l T ⟨128 + e.val, by omega⟩ : ℝ) : EReal) from by
    rw [coe_sum]; exact Finset.sum_congr rfl fun e _ => h41 e]
  rw [← EReal.coe_mul, mul_one_div]

include h41 in
/-- The number of positives: the class count less the row itself. -/
theorem pay2_apply : k0_pay2 (F := Ideal) v41 (ValueIdx.ix2 p (0 : Fin 1)) = ((kNPos l T : ℝ) : EReal) := by
  unfold k0_pay2
  show k0_pay1 (F := Ideal) v41 (ix2 p (0 : Fin 1)) - Ideal.ofBits .f32 0x3F800000#32 = _
  rw [pay1_apply l T v41 p h41, Cert.Consts.ofBits_one, ← EReal.coe_sub]
  rfl

include h41 in
/-- The validity flag: whether the row has a positive. -/
theorem pay3_apply : k0_pay3 (F := Ideal) v41 (ValueIdx.ix2 p (0 : Fin 1)) = ((kValid l T : ℝ) : EReal) := by
  unfold k0_pay3
  show ((((Ideal.cmp .ogt (k0_pay2 (F := Ideal) v41 (ix2 p (0 : Fin 1))) (Ideal.ofBits .f32 0x00000000#32)).setWidth 32).toInt : ℝ) : EReal) = _
  rw [pay2_apply l T v41 p h41, Cert.Consts.ofBits_zero]
  exact gt_word (kNPos l T)

variable (f : Fin 8192 → Fin 128 → ℝ) (q : Fin 128 → ℝ)
  (v7 v40 : FVec Ideal S256x128 .f32) (v13 v24 v29 : FVec Ideal S256x1 .f32)
  (h7 : ∀ d : Fin 128, v7 (ValueIdx.ix2 p d) = ((q d : ℝ) : EReal))
  (h13 : v13 (ValueIdx.ix2 p (0 : Fin 1)) = ((kMax f q : ℝ) : EReal))
  (h24 : v24 (ValueIdx.ix2 p (0 : Fin 1)) = ((kDiagLogit f q : ℝ) : EReal))
  (h29 : v29 (ValueIdx.ix2 p (0 : Fin 1)) = ((kLse f Cert.Consts.eps q : ℝ) : EReal))
  (h40 : ∀ d : Fin 128, v40 (ValueIdx.ix2 p d) = ((kGather l T ⟨d.val, by omega⟩ : ℝ) : EReal))

include h41 h7 h13 h24 h29 h40 in
/-- The first output: minus the mean log-probability of the positives, masked by the validity flag. -/
theorem pay4_apply :
    k0_pay4 (F := Ideal) v7 v13 v24 v29 v40 v41 (ValueIdx.ix2 p (0 : Fin 1)) = ((kOut f Cert.Consts.eps q l T : ℝ) : EReal) := by
  unfold k0_pay4
  show (Ideal.ofBits .f32 0x00000000#32
        - Ideal.div
            ((((shapeCast S256x1 (multiReduction .add [1] S256 (mulf v7 v40) 0x00000000#32 reduces_S256x128_S256 (.inl rfl) rfl)
                  shapeCasts_S256_S256x1 (ix2 p (0 : Fin 1))
                * Named.named (F := Ideal) Cert.KernelIdeal.κ "inv_t" (φ := .f32) 0x41200000#32
                - k0_pay1 (F := Ideal) v41 (ix2 p (0 : Fin 1)) * v13 (ix2 p (0 : Fin 1)))
              - v24 (ix2 p (0 : Fin 1)))
              - k0_pay2 (F := Ideal) v41 (ix2 p (0 : Fin 1)) * v29 (ix2 p (0 : Fin 1))))
            (max (k0_pay2 (F := Ideal) v41 (ix2 p (0 : Fin 1))) (Ideal.ofBits .f32 0x3F800000#32)))
      * k0_pay3 (F := Ideal) v41 (ix2 p (0 : Fin 1)) = _
  rw [pay1_apply l T v41 p h41, pay2_apply l T v41 p h41, pay3_apply l T v41 p h41, h13, h24, h29, named_invT,
    Cert.Consts.ofBits_zero, Cert.Consts.ofBits_one, Cert.RowBlocks.shapeCast_col_apply _ _ p (0 : Fin 1),
    Cert.RowBlocks.rowSum_apply _ _ _ _ p]
  rw [show (∑ k : Fin 128, (mulf v7 v40 : FVec Ideal S256x128 .f32) (ix2 p k))
      = ((∑ d : Fin 128, q d * kGather l T ⟨d.val, by omega⟩ : ℝ) : EReal) from by
    rw [coe_sum]
    refine Finset.sum_congr rfl fun d _ => ?_
    show v7 (ix2 p d) * v40 (ix2 p d) = _
    rw [h7 d, h40 d, ← EReal.coe_mul]]
  have hmax : max (kNPos l T) 1 ≠ 0 := ne_of_gt (lt_of_lt_of_le one_pos (le_max_right _ _))
  rw [coe_max', Ideal.div_coe hmax, ← EReal.coe_mul, ← EReal.coe_mul, ← EReal.coe_mul, ← EReal.coe_sub, ← EReal.coe_sub,
    ← EReal.coe_sub, ← EReal.coe_mul, ← EReal.coe_zero, ← EReal.coe_sub, ← EReal.coe_mul]
  unfold kOut kNum
  rw [mul_one_div]

end

end Cert.KernelIdeal.Row

end
-- ==== Proof.KernelRow.lean ====
/-
  The kernel body's two stored values at a row, on the extended reals: the masked negative mean log-probability
  of the row's positives, and the row's validity flag, as the real quantities of the kernel's arrangement.
-/
import proofs.«108639_j90117003805311_2_alg».proof.Proof.KernelRow2
import proofs.«108639_j90117003805311_2_alg».proof.Proof.KernelRow3
import proofs.«108639_j90117003805311_2_alg».proof.Proof.KernelRow4

noncomputable section

open scoped BigOperators

namespace Cert.KernelIdeal.Row

open Cert.KernelIdeal Cert.KernelIdeal.Gen Idealize.ShloMosaic Idealize.ShloMosaic.ValueIdx Cert.SupCon

variable [Cert.KernelIdeal.Facts]

/-- The first stored value at row `p` of the block: `kOut` of the row, its label and the class table, when the
    block's rows are rows of the full matrix. -/
theorem pay_out (v3 : Vec Ideal S256x128 .bf16) (v5 : Vec Ideal S8192x128 .bf16) (v30 : Vec Ideal S256x1 .i32)
    (v37 : Vec Ideal S128x256 .f32)
    (f : Fin 8192 → Fin 128 → ℝ) (qs : Fin 256 → Fin 128 → ℝ) (ls : Fin 256 → BitVec 32) (T : Fin 128 → Fin 256 → ℝ)
    (h3 : ∀ (p : Fin 256) (d : Fin 128), v3 (ValueIdx.ix2 p d) = ((qs p d : ℝ) : EReal))
    (h5 : ∀ (c : Fin 8192) (d : Fin 128), v5 (ValueIdx.ix2 c d) = ((f c d : ℝ) : EReal))
    (h30 : ∀ p : Fin 256, v30 (ValueIdx.ix2 p (0 : Fin 1)) = ls p)
    (h37 : ∀ (c : Fin 128) (e : Fin 256), v37 (ValueIdx.ix2 c e) = ((T c e : ℝ) : EReal))
    (row : Fin 256 → Fin 8192) (hq : ∀ p, qs p = f (row p)) (p : Fin 256) :
    k0_pay4 (F := Ideal) (k0_pay5 v3) (k0_pay7 v3 v5) (k0_pay8 v3 v5) (k0_pay9 v3 v5) (k0_pay11 v30 v37) (k0_pay12 v30 v37)
        (ValueIdx.ix2 p (0 : Fin 1))
      = ((kOut f Cert.Consts.eps (qs p) (ls p) T : ℝ) : EReal) :=
  pay4_apply (ls p) T (k0_pay12 (F := Ideal) v30 v37) p (fun e => pay12_apply v30 v37 ls T h30 h37 p e) f (qs p)
    (k0_pay5 (F := Ideal) v3) (k0_pay11 (F := Ideal) v30 v37) (k0_pay7 (F := Ideal) v3 v5) (k0_pay8 (F := Ideal) v3 v5)
    (k0_pay9 (F := Ideal) v3 v5)
    (fun d => pay5_apply v3 qs h3 p d) (pay7_apply v3 v5 f qs h3 h5 p) (pay8_apply v3 v5 f qs h3 h5 p)
    (pay9_apply v3 v5 f qs h3 h5 p (row p) (hq p)) (fun d => pay11_apply v30 v37 ls T h30 h37 p d)

/-- The second stored value at row `p` of the block: the validity flag `kValid` of the row's label and the class table. -/
theorem pay_valid (v30 : Vec Ideal S256x1 .i32) (v37 : Vec Ideal S128x256 .f32)
    (ls : Fin 256 → BitVec 32) (T : Fin 128 → Fin 256 → ℝ)
    (h30 : ∀ p : Fin 256, v30 (ValueIdx.ix2 p (0 : Fin 1)) = ls p)
    (h37 : ∀ (c : Fin 128) (e : Fin 256), v37 (ValueIdx.ix2 c e) = ((T c e : ℝ) : EReal)) (p : Fin 256) :
    k0_pay3 (F := Ideal) (k0_pay12 v30 v37) (ValueIdx.ix2 p (0 : Fin 1)) = ((kValid (ls p) T : ℝ) : EReal) :=
  pay3_apply (ls p) T (k0_pay12 (F := Ideal) v30 v37) p (fun e => pay12_apply v30 v37 ls T h30 h37 p e)

end Cert.KernelIdeal.Row

end
-- ==== Proof.KernelValue.lean ====
/-
  The kernel's two output columns after the run, row by row, from what the region finds in its three input arrays:
  the features `f`, the label column `lab` and the class table `T`. Row `r` of the first column ends at the kernel
  arrangement's masked mean log-probability of row `r`, row `r` of the second at its validity.
-/
import proofs.«108639_j90117003805311_2_alg».proof.Proof.KernelBlocks
import proofs.«108639_j90117003805311_2_alg».proof.Proof.KernelRow
import proofs.«108639_j90117003805311_2_alg».proof.Proof.LossSpec
import proofs.«108639_j90117003805311_2_alg».proof.Proof.Consts

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.Piece Cert.KernelIdeal.Blocks Cert.SupCon

variable (m : (ℓ : Loc nD τ sig) → Buf (Elt Ideal) ℓ) (c : Dev nD)
variable (f : Fin 8192 → Fin 128 → ℝ) (lab : Fin 8192 → BitVec 32) (T : Fin 128 → Fin 256 → ℝ)

/-- What the body leaves in row `p` of its first output block at point `t`. -/
theorem outs1
    (hF : ∀ (r : Fin 8192) (d : Fin 128), (V m c main_v0 : S8192x128.Idx → EReal) (ix2 r d) = ((f r d : ℝ) : EReal))
    (hL : ∀ r : Fin 8192, (V m c main_v1 : S8192x1.Idx → BitVec 32) (ix2 r (0 : Fin 1)) = lab r)
    (hT : ∀ (cl : Fin 128) (e : Fin 256), (V m c main_v14 : S128x256.Idx → EReal) (ix2 cl e) = ((T cl e : ℝ) : EReal))
    (t : Fin cfg0.N) (p : Fin 256) (u : Fin 1) :
    (outsAt0 m c t).1 (ix2 p u) = ((kOut f Cert.Consts.eps (f (row t p)) (lab (row t p)) T : ℝ) : EReal) := by
  obtain rfl : u = 0 := Subsingleton.elim _ _
  unfold outsAt0
  dsimp only
  rw [out3_eq]
  exact Cert.KernelIdeal.Row.pay_out (qrows (grid0.coords t) (iblk m c 0 t)) (iblk m c 0 t) (iblk m c 2 t) (iblk m c 1 t)
    f (fun p d => f (row t p) d) (fun p => lab (row t p)) T
    (fun p d => by rw [qrows_apply, iblk0_apply]; exact hF _ _)
    (fun r d => by rw [iblk0_apply]; exact hF _ _)
    (fun p => by rw [iblk2_apply]; exact hL _)
    (fun cl e => by rw [iblk1_apply]; exact hT _ _)
    (row t) (fun _ => rfl) p

/-- What the body leaves in row `p` of its second output block at point `t`. -/
theorem outs2
    (hL : ∀ r : Fin 8192, (V m c main_v1 : S8192x1.Idx → BitVec 32) (ix2 r (0 : Fin 1)) = lab r)
    (hT : ∀ (cl : Fin 128) (e : Fin 256), (V m c main_v14 : S128x256.Idx → EReal) (ix2 cl e) = ((T cl e : ℝ) : EReal))
    (t : Fin cfg0.N) (p : Fin 256) (u : Fin 1) :
    (outsAt0 m c t).2 (ix2 p u) = ((kValid (lab (row t p)) T : ℝ) : EReal) := by
  obtain rfl : u = 0 := Subsingleton.elim _ _
  unfold outsAt0
  dsimp only
  rw [out4_eq]
  exact Cert.KernelIdeal.Row.pay_valid (iblk m c 2 t) (iblk m c 1 t) (fun p => lab (row t p)) T
    (fun p => by rw [iblk2_apply]; exact hL _)
    (fun cl e => by rw [iblk1_apply]; exact hT _ _) p

/-- The first output column after the run. -/
theorem final3
    (hF : ∀ (r : Fin 8192) (d : Fin 128), (V m c main_v0 : S8192x128.Idx → EReal) (ix2 r d) = ((f r d : ℝ) : EReal))
    (hL : ∀ r : Fin 8192, (V m c main_v1 : S8192x1.Idx → BitVec 32) (ix2 r (0 : Fin 1)) = lab r)
    (hT : ∀ (cl : Fin 128) (e : Fin 256), (V m c main_v14 : S128x256.Idx → EReal) (ix2 cl e) = ((T cl e : ℝ) : EReal)) :
    (dats m 0 c).arrAt 3 cfg0.N
      = fun j : S8192x1.Idx => ((kOut f Cert.Consts.eps (f (j 0)) (lab (j 0)) T : ℝ) : EReal) :=
  Blocks.final3 m c (fun r => ((kOut f Cert.Consts.eps (f r) (lab r) T : ℝ) : EReal)) (outs1 m c f lab T hF hL hT)

/-- The second output column after the run. -/
theorem final4
    (hL : ∀ r : Fin 8192, (V m c main_v1 : S8192x1.Idx → BitVec 32) (ix2 r (0 : Fin 1)) = lab r)
    (hT : ∀ (cl : Fin 128) (e : Fin 256), (V m c main_v14 : S128x256.Idx → EReal) (ix2 cl e) = ((T cl e : ℝ) : EReal)) :
    (dats m 0 c).arrAt 4 cfg0.N = fun j : S8192x1.Idx => ((kValid (lab (j 0)) T : ℝ) : EReal) :=
  Blocks.final4 m c (fun r => ((kValid (lab r) T : ℝ) : EReal)) (outs2 m c lab T hL hT)

end Cert.KernelIdeal.Value

end
-- ==== Proof.HostPrefix1.lean ====
/-
  The arrays the host operations before the region leave, as composed terms.

  Three arrays are read by the region's input windows: the features converted to the narrow format (the identity on
  extended reals), the labels reshaped to a column, and the per-class table: for each of 128 classes the sums of
  the feature coordinates over the rows carrying that class, next to the number of such rows repeated 128 times.
  This module names the terms the operations compose and proves that the region finds exactly these.
-/
import proofs.«108639_j90117003805311_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Prefix

open Cert.KernelIdeal Cert.KernelIdeal.Gen Idealize.ShloMosaic Idealize.ShloMosaic.TcCoe Idealize.SL.Sem

variable [Cert.KernelIdeal.Facts]

/-! ## The composed terms, over variables of the literal array types -/

/-- The class numbers 0 … 127 laid along the columns of an 8192 × 128 array. -/
def classGrid : IVec S8192x128 32 :=
  broadcastInDim S8192x128 ![0, 1] bcast_S1x128_S8192x128_0_1
    (broadcastInDim S1x128 ![1] bcast_S128_S1x128_1 (iotaInDim S128 32 0))

/-- The labels laid along the rows of an 8192 × 128 array. -/
def labelGrid (x1 : IVec S8192 32) : IVec S8192x128 32 :=
  broadcastInDim S8192x128 ![0, 1] bcast_S8192x1_S8192x128_0_1
    (broadcastInDim S8192x1 ![0] bcast_S8192_S8192x1_0 x1)

/-- The one-hot matrix as bits: entry (b, c) says whether row b's label is the class number c. -/
def ohBits (x1 : IVec S8192 32) : IVec S8192x128 1 :=
  cmpi .eq (labelGrid x1) classGrid

/-- The one-hot matrix as numbers (each bit read unsigned: one or zero). -/
def ohNum (x1 : IVec S8192 32) : FVec Ideal S8192x128 .bf16 :=
  uitofp (F := Ideal) .bf16 (ohBits x1)

/-- The class sums: the one-hot matrix transposed times the features, a 128 × 128 array. -/
def classSums (x0 : FVec Ideal S8192x128 .f32) (x1 : IVec S8192 32) :
    FVec Ideal S128x128 .f32 :=
  Host.dotGeneral (F := Ideal) dot_S8192x128_S8192x128_S128x128_0_0_1_1_n_n none (ohNum x1)
    (truncf (F := Ideal) .bf16 x0 bitsLt_bf16_f32)

/-- The class counts: the column sums of the one-hot matrix, from zero. -/
def classCounts (x1 : IVec S8192 32) : FVec Ideal S128 .f32 :=
  Host.reduceAdd (F := Ideal) (extf (F := Ideal) .f32 (ohNum x1) bitsLt_bf16_f32)
    (constant (F := Ideal) S_ .f32 0x00000000#32) reducesTo_S8192x128_S128_d0 h_S_

/-- The class counts repeated along 128 columns. -/
def countGrid (x1 : IVec S8192 32) : FVec Ideal S128x128 .f32 :=
  broadcastInDim S128x128 ![0, 1] bcast_S128x1_S128x128_0_1
    (broadcastInDim S128x1 ![0] bcast_S128_S128x1_0 (classCounts x1))

/-- The class table: the class sums in columns 0 … 127, the repeated class counts in columns 128 … 255. -/
def tableArr (x0 : FVec Ideal S8192x128 .f32) (x1 : IVec S8192 32) :
    FVec Ideal S128x256 .f32 :=
  concatenate S128x256 1 [⟨S128x128, classSums x0 x1⟩, ⟨S128x128, countGrid x1⟩]
    concatenates_S128x128_S128x128_S128x256_d1

/-! ## What the region finds -/

variable (m : (ℓ : Loc nD τ sig) → Buf (Elt Ideal) ℓ) (c : Dev nD)

/-- The first window's array is the features through the format change. -/
theorem V_v0_eq : (V m c main_v0 : S8192x128.Idx → EReal)
    = truncf (F := Ideal) .bf16 (m ((c : Thread nD τ).loc main_arg0) : S8192x128.Idx → EReal) bitsLt_bf16_f32 := by
  show StableHlo.after hostOps0 (fun b => m (c, b)) (Proc.devRef .tc main_v0) = _
  after_results
  all_goals rfl

/-- The third window's array is the labels reshaped to a column. -/
theorem V_v1_eq : (V m c main_v1 : S8192x1.Idx → BitVec 32)
    = shapeCast S8192x1 (m ((c : Thread nD τ).loc main_arg1) : S8192.Idx → BitVec 32) shapeCasts_S8192_S8192x1 := by
  show StableHlo.after hostOps0 (fun b => m (c, b)) (Proc.devRef .tc main_v1) = _
  after_results
  all_goals rfl

/-- The second window's array is the class table of the features and labels as launched. -/
theorem V_v14_eq : (V m c main_v14 : S128x256.Idx → EReal)
    = tableArr (m ((c : Thread nD τ).loc main_arg0) : S8192x128.Idx → EReal)
        (m ((c : Thread nD τ).loc main_arg1) : S8192.Idx → BitVec 32) := by
  show StableHlo.after hostOps0 (fun b => m (c, b)) (Proc.devRef .tc main_v14) = _
  after_results
  all_goals rfl

/-! ## The two arrays read at an index -/

/-- The format change is the identity on extended reals: the first window's array is the features, entry by entry. -/
theorem V_feat (i : S8192x128.Idx) :
    (V m c main_v0 : S8192x128.Idx → EReal) i = (m ((c : Thread nD τ).loc main_arg0) : S8192x128.Idx → EReal) i :=
  (congrFun (V_v0_eq m c) i).trans (ValueIdx.truncf_apply _ _ i)

/-- Row `r` of the label column is label `r`: both sit at row-major position `r`. -/
theorem V_labcol (r : Fin 8192) :
    (V m c main_v1 : S8192x1.Idx → BitVec 32) (ValueIdx.ix2 r (0 : Fin 1))
      = (m ((c : Thread nD τ).loc main_arg1) : S8192.Idx → BitVec 32) (ValueIdx.ix1 r) :=
  (congrFun (V_v1_eq m c) _).trans (shapeCast_apply _ shapeCasts_S8192_S8192x1 _ _ (by
    rw [Shape.rowMajor_val_two, Shape.rowMajor_val_one]
    show r.val = r.val * 1 + 0
    omega))

end Cert.KernelIdeal.Prefix

end
-- ==== Proof.HostPrefix2.lean ====
/-
  The class table read at an index, against the specification.

  The one-hot matrix at (b, c) is one when row b's label is the word of the number c and zero otherwise. The class
  sums contract it with the features over the rows; the class counts sum its columns; the table lays the sums in
  columns 0 … 127 and the counts in columns 128 … 255. With real features these are, entry by entry, the
  specification's table.
-/
import proofs.«108639_j90117003805311_2_alg».proof.Proof.HostPrefix1
import proofs.«108639_j90117003805311_2_alg».proof.Proof.LossSpec

noncomputable section

namespace Cert.KernelIdeal.Prefix

open Cert.KernelIdeal Cert.KernelIdeal.Gen Idealize.ShloMosaic Idealize.ShloMosaic.TcCoe Idealize.SL.Sem Cert.SupCon

variable [Cert.KernelIdeal.Facts]

/-! ## The one-hot matrix at an index -/

/-- The class grid at (b, c) is the word of the number c. -/
theorem classGrid_apply (b : Fin 8192) (cl : Fin 128) :
    classGrid (ValueIdx.ix2 b cl) = BitVec.ofNat 32 cl.val := by
  unfold classGrid
  refine (broadcastInDim_apply _ bcast_S1x128_S8192x128_0_1 _ (ValueIdx.ix2 b cl) (ValueIdx.ix2 (0 : Fin 1) cl) (fun a => match a with
    | ⟨0, _⟩ => by show 0 = if (1 : Nat) = 1 then 0 else b.val; rw [if_pos rfl]
    | ⟨1, _⟩ => by show cl.val = if (128 : Nat) = 1 then 0 else cl.val; rw [if_neg (by decide)])).trans ?_
  refine (broadcastInDim_apply _ bcast_S128_S1x128_1 _ (ValueIdx.ix2 (0 : Fin 1) cl) (ValueIdx.ix1 cl) (fun a => match a with
    | ⟨0, _⟩ => by show cl.val = if (128 : Nat) = 1 then 0 else cl.val; rw [if_neg (by decide)])).trans ?_
  rfl

/-- The label grid at (b, c) is row b's label. -/
theorem labelGrid_apply (x1 : IVec S8192 32) (b : Fin 8192) (cl : Fin 128) :
    labelGrid x1 (ValueIdx.ix2 b cl) = x1 (ValueIdx.ix1 b) := by
  unfold labelGrid
  refine (broadcastInDim_apply _ bcast_S8192x1_S8192x128_0_1 _ (ValueIdx.ix2 b cl) (ValueIdx.ix2 b (0 : Fin 1)) (fun a => match a with
    | ⟨0, _⟩ => by show b.val = if (8192 : Nat) = 1 then 0 else b.val; rw [if_neg (by decide)]
    | ⟨1, _⟩ => by show 0 = if (1 : Nat) = 1 then 0 else cl.val; rw [if_pos rfl])).trans ?_
  exact broadcastInDim_apply _ bcast_S8192_S8192x1_0 x1 (ValueIdx.ix2 b (0 : Fin 1)) (ValueIdx.ix1 b) (fun a => match a with
    | ⟨0, _⟩ => by show b.val = if (8192 : Nat) = 1 then 0 else b.val; rw [if_neg (by decide)])

/-- The one-hot bit at (b, c): whether row b's label is the word of c. -/
theorem ohBits_apply (x1 : IVec S8192 32) (b : Fin 8192) (cl : Fin 128) :
    ohBits x1 (ValueIdx.ix2 b cl) = IntOp.cmpi .eq (x1 (ValueIdx.ix1 b)) (BitVec.ofNat 32 cl.val) := by
  show IntOp.cmpi .eq (labelGrid x1 (ValueIdx.ix2 b cl)) (classGrid (ValueIdx.ix2 b cl)) = _
  rw [labelGrid_apply, classGrid_apply]

/-- The one-hot number at (b, c): one when row b's label is the word of c, zero otherwise. -/
theorem ohNum_apply (x1 : IVec S8192 32) (b : Fin 8192) (cl : Fin 128) :
    ohNum x1 (ValueIdx.ix2 b cl) = ((onehot (x1 (ValueIdx.ix1 b)) cl : ℝ) : EReal) := by
  show (((ohBits x1 (ValueIdx.ix2 b cl)).toNat : ℝ) : EReal) = _
  rw [ohBits_apply]
  unfold onehot IntOp.cmpi
  by_cases h : x1 (ValueIdx.ix1 b) = BitVec.ofNat 32 cl.val
  · rw [if_pos h]; simp [h]
  · rw [if_neg h]; simp [h]

/-! ## The class sums at an index -/

/-- The dot's left operand index on its contracted axis is the contraction position. -/
theorem lhs_ax0 (i : S128x128.Idx) (q : dot_S8192x128_S8192x128_S128x128_0_0_1_1_n_n.contr.Idx) :
    (dot_S8192x128_S8192x128_S128x128_0_0_1_1_n_n.lhsIdx i q 0).val = (q ⟨0, by decide⟩).val :=
  dot_S8192x128_S8192x128_S128x128_0_0_1_1_n_n.lhsIdx_val_of_single rfl i q
/-- The dot's left operand index on its kept axis is the output's first coordinate. -/
theorem lhs_ax1 (i : S128x128.Idx) (q : dot_S8192x128_S8192x128_S128x128_0_0_1_1_n_n.contr.Idx) :
    (dot_S8192x128_S8192x128_S128x128_0_0_1_1_n_n.lhsIdx i q 1).val = (i 0).val := by
  unfold DotDims.lhsIdx
  rw [dif_neg (show ¬(1 : Fin S8192x128.rank) ∈ dot_S8192x128_S8192x128_S128x128_0_0_1_1_n_n.lhsBatch by decide), dif_pos (show (1 : Fin S8192x128.rank) ∈ dot_S8192x128_S8192x128_S128x128_0_0_1_1_n_n.lhsNonContracting by decide)]
  rfl
/-- The dot's right operand index on its contracted axis is the contraction position. -/
theorem rhs_ax0 (i : S128x128.Idx) (q : dot_S8192x128_S8192x128_S128x128_0_0_1_1_n_n.contr.Idx) :
    (dot_S8192x128_S8192x128_S128x128_0_0_1_1_n_n.rhsIdx i q 0).val = (q ⟨0, by decide⟩).val :=
  dot_S8192x128_S8192x128_S128x128_0_0_1_1_n_n.rhsIdx_val_of_single rfl i q
/-- The dot's right operand index on its kept axis is the output's second coordinate. -/
theorem rhs_ax1 (i : S128x128.Idx) (q : dot_S8192x128_S8192x128_S128x128_0_0_1_1_n_n.contr.Idx) :
    (dot_S8192x128_S8192x128_S128x128_0_0_1_1_n_n.rhsIdx i q 1).val = (i 1).val := by
  unfold DotDims.rhsIdx
  rw [dif_neg (show ¬(1 : Fin S8192x128.rank) ∈ dot_S8192x128_S8192x128_S128x128_0_0_1_1_n_n.rhsBatch by decide), dif_pos (show (1 : Fin S8192x128.rank) ∈ dot_S8192x128_S8192x128_S128x128_0_0_1_1_n_n.rhsNonContracting by decide)]
  rfl

/-- The class sums at (c, e): the sum over the rows b of the one-hot number at (b, c) times the feature at (b, e). -/
theorem classSums_apply (x0 : FVec Ideal S8192x128 .f32) (x1 : IVec S8192 32) (cl e : Fin 128) :
    classSums x0 x1 (ValueIdx.ix2 cl e) = ∑ b : Fin 8192, ohNum x1 (ValueIdx.ix2 b cl) * x0 (ValueIdx.ix2 b e) := by
  unfold classSums
  generalize ohNum x1 = y
  simp only [Host.dotGeneral]
  rw [Ideal.dotGeneral_apply, ← Equiv.sum_comp (ValueIdx.contrEquiv1 dot_S8192x128_S8192x128_S128x128_0_0_1_1_n_n 8192 rfl rfl).symm]
  refine Finset.sum_congr rfl fun k _ => ?_
  have hk := ValueIdx.contrEquiv1_symm_val dot_S8192x128_S8192x128_S128x128_0_0_1_1_n_n 8192 rfl rfl k
  have el : dot_S8192x128_S8192x128_S128x128_0_0_1_1_n_n.lhsIdx (ValueIdx.ix2 cl e) ((ValueIdx.contrEquiv1 dot_S8192x128_S8192x128_S128x128_0_0_1_1_n_n 8192 rfl rfl).symm k) = ValueIdx.ix2 k cl := funext fun a => Fin.ext (by
    match a with
    | ⟨0, _⟩ => exact (lhs_ax0 _ _).trans hk
    | ⟨1, _⟩ => exact lhs_ax1 _ _)
  have er : dot_S8192x128_S8192x128_S128x128_0_0_1_1_n_n.rhsIdx (ValueIdx.ix2 cl e) ((ValueIdx.contrEquiv1 dot_S8192x128_S8192x128_S128x128_0_0_1_1_n_n 8192 rfl rfl).symm k) = ValueIdx.ix2 k e := funext fun a => Fin.ext (by
    match a with
    | ⟨0, _⟩ => exact (rhs_ax0 _ _).trans hk
    | ⟨1, _⟩ => exact rhs_ax1 _ _)
  rw [el, er]
  rfl

/-! ## The class counts at an index -/

/-- The class count of c: the sum over the rows b of the one-hot number at (b, c) (the sum starts from zero). -/
theorem classCounts_apply (x1 : IVec S8192 32) (cl : Fin 128) :
    classCounts x1 (ValueIdx.ix1 cl) = ∑ b : Fin 8192, ohNum x1 (ValueIdx.ix2 b cl) := by
  unfold classCounts
  generalize ohNum x1 = y
  simp only [Host.reduceAdd, Ideal.hostReduceAdd_def]
  rw [Ideal.hostReduceAdd_single reducesTo_S8192x128_S128_d0 (by decide)]
  refine (congrArg (· + _) Ideal.ofBits_zero_f32).trans ((zero_add _).trans ?_)
  refine Finset.sum_congr rfl fun k _ => ?_
  exact congrArg y (funext fun a => Fin.ext (by match a with | ⟨0, _⟩ => rfl | ⟨1, _⟩ => rfl))

/-- The repeated counts at (c, e): the class count of c, whatever the column. -/
theorem countGrid_apply (x1 : IVec S8192 32) (cl e : Fin 128) :
    countGrid x1 (ValueIdx.ix2 cl e) = classCounts x1 (ValueIdx.ix1 cl) := by
  unfold countGrid
  generalize classCounts x1 = y
  refine (broadcastInDim_apply _ bcast_S128x1_S128x128_0_1 _ (ValueIdx.ix2 cl e) (ValueIdx.ix2 cl (0 : Fin 1)) (fun a => match a with
    | ⟨0, _⟩ => by show cl.val = if (128 : Nat) = 1 then 0 else cl.val; rw [if_neg (by decide)]
    | ⟨1, _⟩ => by show 0 = if (1 : Nat) = 1 then 0 else e.val; rw [if_pos rfl])).trans ?_
  exact broadcastInDim_apply _ bcast_S128_S128x1_0 y (ValueIdx.ix2 cl (0 : Fin 1)) (ValueIdx.ix1 cl) (fun a => match a with
    | ⟨0, _⟩ => by show cl.val = if (128 : Nat) = 1 then 0 else cl.val; rw [if_neg (by decide)])

/-! ## The table at an index -/

/-- A column below 128 of the table reads the class sums at that column. -/
theorem tableArr_apply_left (x0 : FVec Ideal S8192x128 .f32) (x1 : IVec S8192 32) (cl : Fin 128) (e : Fin 256) (h : e.val < 128) :
    tableArr x0 x1 (ValueIdx.ix2 cl e) = classSums x0 x1 (ValueIdx.ix2 cl (⟨e.val, h⟩ : Fin 128)) := by
  unfold tableArr
  exact concatenate_pair_apply_left 1 _ _ concatenates_S128x128_S128x128_S128x256_d1 (ValueIdx.ix2 cl e) rfl
    (ValueIdx.ix2 cl (⟨e.val, h⟩ : Fin 128)) (fun b => match b with | ⟨0, _⟩ => rfl | ⟨1, _⟩ => rfl)

/-- A column from 128 on reads the repeated counts, 128 columns to the left. -/
theorem tableArr_apply_right (x0 : FVec Ideal S8192x128 .f32) (x1 : IVec S8192 32) (cl : Fin 128) (e : Fin 256) (h : ¬ e.val < 128) :
    tableArr x0 x1 (ValueIdx.ix2 cl e) = countGrid x1 (ValueIdx.ix2 cl (⟨e.val - 128, by omega⟩ : Fin 128)) := by
  unfold tableArr
  exact concatenate_pair_apply_right 1 _ _ concatenates_S128x128_S128x128_S128x256_d1 (ValueIdx.ix2 cl e) rfl rfl
    (ValueIdx.ix2 cl (⟨e.val - 128, by omega⟩ : Fin 128))
    (fun b => match b with | ⟨0, _⟩ => fun _ => rfl | ⟨1, _⟩ => fun hb => absurd rfl hb)
    (by show (e.val - 128) + 128 = e.val; omega)

/-! ## From extended reals to reals -/

/-- The inclusion of the reals commutes with finite sums. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The class table of real features, entry by entry: the table of the specification. -/
theorem tableArr_apply (f : Fin 8192 → Fin 128 → ℝ) (x0 : FVec Ideal S8192x128 .f32) (x1 : IVec S8192 32)
    (hX : ∀ (r : Fin 8192) (d : Fin 128), x0 (ValueIdx.ix2 r d) = ((f r d : ℝ) : EReal)) (cl : Fin 128) (e : Fin 256) :
    tableArr x0 x1 (ValueIdx.ix2 cl e) = ((table f (fun r => x1 (ValueIdx.ix1 r)) cl e : ℝ) : EReal) := by
  unfold table
  by_cases h : e.val < 128
  · rw [dif_pos h, tableArr_apply_left x0 x1 cl e h, classSums_apply, coe_sum]
    refine Finset.sum_congr rfl fun b _ => ?_
    rw [ohNum_apply, hX, EReal.coe_mul]
  · rw [dif_neg h, tableArr_apply_right x0 x1 cl e h, countGrid_apply, classCounts_apply, coe_sum]
    refine Finset.sum_congr rfl fun b _ => ?_
    rw [ohNum_apply]

/-! ## The table the region finds -/

variable (m : (ℓ : Loc nD τ sig) → Buf (Elt Ideal) ℓ) (c : Dev nD)

/-- The second window's array, as the region finds it, is the specification's class table of the launched features
    (real by hypothesis) and labels. -/
theorem V_table (f : Fin 8192 → Fin 128 → ℝ)
    (hX : ∀ (r : Fin 8192) (d : Fin 128),
      (m ((c : Thread nD τ).loc main_arg0) : S8192x128.Idx → EReal) (ValueIdx.ix2 r d) = ((f r d : ℝ) : EReal))
    (cl : Fin 128) (e : Fin 256) :
    (V m c main_v14 : S128x256.Idx → EReal) (ValueIdx.ix2 cl e)
      = ((table f (fun r => (m ((c : Thread nD τ).loc main_arg1) : S8192.Idx → BitVec 32) (ValueIdx.ix1 r)) cl e : ℝ) : EReal) :=
  (congrFun (V_v14_eq m c) _).trans (tableArr_apply f _ _ hX cl e)

end Cert.KernelIdeal.Prefix

end
-- ==== Proof.HostPrefix.lean ====
/-
  The three arrays the region's input windows stage, as the region finds them, read at an index: the features
  (`V_feat`), the label column (`V_labcol`) and the per-class table (`V_table`). The first module names the
  terms the host operations compose; the second reads the table entry by entry.
-/
import proofs.«108639_j90117003805311_2_alg».proof.Proof.HostPrefix1
import proofs.«108639_j90117003805311_2_alg».proof.Proof.HostPrefix2
-- ==== Proof.TailValue.lean ====
/-
  The host operations after the kernel, read at the extended reals on two columns of real numbers: the sum of a column
  of reals is the real sum, the comparison with zero and the maximum with one are the reals', and the quotient by a
  nonzero real is the real quotient; so the result is the quotient of the two column sums when the validity sum is
  positive, and zero otherwise.
-/
import proofs.«108639_j90117003805311_2_alg».proof.Proof.TailDef
import proofs.«108639_j90117003805311_2_alg».proof.Proof.LossSpec
import proofs.«108639_j90117003805311_2_alg».proof.Proof.Consts
import Idealize.ShloMosaic.Lib.ValueIdx
import Idealize.ShloMosaic.PureOps.Ideal.Laws

noncomputable section

namespace Cert.KernelIdeal.Tail

open Idealize.ShloMosaic Cert.KernelIdeal
open Cert.KernelIdeal.Facts₀ Cert.KernelIdeal.Facts

/-- The coercion of a finite sum of reals is the sum of the coercions. -/
theorem coe_sum {ι : Type} (s : Finset ι) (g : ι → ℝ) :
    ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- The sum of a column of real numbers over both axes, from zero, is the real sum of its entries. -/
theorem colSum (a : (⟨S8192x1, .f32⟩ : BufTy).Contents (Elt Ideal)) (g : Fin 8192 → ℝ)
    (h : ∀ r : Fin 8192, a (ValueIdx.ix2 r (0 : Fin 1)) = ((g r : ℝ) : EReal)) (i : S_.Idx) :
    Host.reduceAdd (F := Ideal) a (constant (F := Ideal) S_ .f32 0x00000000#32) reducesTo_S8192x1_S_d0_1 h_S_ i
      = ((∑ r : Fin 8192, g r : ℝ) : EReal) := by
  simp only [Host.reduceAdd, Ideal.hostReduceAdd_def]
  rw [Ideal.hostReduceAdd_total reducesTo_S8192x1_S_d0_1 (fun b => b.elim0) a _ i]
  rw [ValueIdx.constant_apply, Cert.Consts.ofBits_zero, zero_add, ValueIdx.sum_idx2]
  simp only [Fin.sum_univ_one]
  rw [coe_sum]
  exact Finset.sum_congr rfl fun r _ => h r

/-- The host tail on two columns of reals is the quotient of the column sums, guarded by the validity sum. -/
theorem tail_value (o v : Fin 8192 → ℝ) (a3 a4 : (⟨S8192x1, .f32⟩ : BufTy).Contents (Elt Ideal))
    (h3 : ∀ r : Fin 8192, a3 (ValueIdx.ix2 r (0 : Fin 1)) = ((o r : ℝ) : EReal))
    (h4 : ∀ r : Fin 8192, a4 (ValueIdx.ix2 r (0 : Fin 1)) = ((v r : ℝ) : EReal)) :
    tail (F := Ideal) a3 a4 = fun _ => ((Cert.SupCon.kLoss o v : ℝ) : EReal) := by
  funext i
  unfold tail
  simp only [ValueIdx.select_apply, ValueIdx.cmpf_apply, Host.divf, ValueIdx.maximumf_apply, ValueIdx.constant_apply,
    colSum a3 o h3, colSum a4 v h4, Cert.Consts.ofBits_zero, Cert.Consts.ofBits_one, Ideal.hostDivf_def,
    Ideal.cmpf_def]
  unfold Cert.SupCon.kLoss
  generalize (∑ r : Fin 8192, v r) = V
  generalize (∑ r : Fin 8192, o r) = O
  by_cases hV : 0 < V
  · have hc : Ideal.cmp .ogt ((V : ℝ) : EReal) 0 = 1#1 := by simp [Ideal.cmp, hV]
    have hm : max V 1 ≠ 0 := ne_of_gt (lt_of_lt_of_le one_pos (le_max_right V 1))
    have hmax : max ((V : ℝ) : EReal) ((1 : ℝ) : EReal) = ((max V 1 : ℝ) : EReal) :=
      (EReal.coe_strictMono.monotone.map_max).symm
    rw [hc, if_pos hV, hmax, Ideal.div_coe hm, ← EReal.coe_mul, mul_one_div]
    simp [Scalar.select]
  · have hc : Ideal.cmp .ogt ((V : ℝ) : EReal) 0 = 0#1 := by simp [Ideal.cmp, hV]
    rw [hc, if_neg hV]
    simp [Scalar.select]

end Cert.KernelIdeal.Tail

end
-- ==== Proof.LossAlgebra.lean ====
/-
  The two arrangements of the supervised contrastive loss are one function over the reals: each per-row quantity of
  the kernel's arrangement, taken at row `r` of the feature matrix with its label and the per-class table, equals the
  corresponding quantity of the reference's arrangement.
-/
import proofs.«108639_j90117003805311_2_alg».proof.Proof.LossSpec

noncomputable section

namespace Cert.SupCon

open Finset

variable (f : Fin 8192 → Fin 128 → ℝ) (lab : Fin 8192 → BitVec 32) (eps : ℝ)

/-! ## Similarities, the row maximum, the log-sum-exp -/

/-- Scaling the row by the reciprocal temperature before the product is dividing the inner product by the
    temperature: `Σ_d (q_d · invT) · k_d = (Σ_d q_d · k_d) / temp`. -/
theorem kSim_eq (r c : Fin 8192) : kSim f (f r) c = sim f r c := by
  unfold kSim sim
  rw [invT_eq, div_eq_mul_inv (∑ d : Fin 128, f r d * f c d), Finset.sum_mul]
  refine Finset.sum_congr rfl fun d _ => ?_
  ring

/-- The same, as an equality of rows. -/
theorem kSim_eq_fun (r : Fin 8192) : kSim f (f r) = sim f r := funext (kSim_eq f r)

/-- The maxima of equal rows are equal. -/
theorem kMax_eq (r : Fin 8192) : kMax f (f r) = rowMax f r := by
  unfold kMax rowMax
  simp only [kSim_eq_fun]

/-- The recomputed diagonal term is the row's similarity with itself, shifted by the row maximum. -/
theorem kDiagLogit_eq (r : Fin 8192) : kDiagLogit f (f r) = sim f r r - rowMax f r := by
  unfold kDiagLogit
  rw [kMax_eq]
  congr 1
  unfold sim
  rw [invT_eq]
  ring

/-- A sum against the off-diagonal mask is the full sum minus the diagonal term. -/
theorem sum_mul_offDiag (g : Fin 8192 → ℝ) (r : Fin 8192) :
    ∑ c : Fin 8192, g c * offDiag r c = (∑ c : Fin 8192, g c) - g r := by
  have h : ∀ c : Fin 8192, g c * offDiag r c = g c - (if r = c then g c else 0) := by
    intro c
    unfold offDiag
    by_cases hc : r = c
    · simp [hc]
    · simp [hc]
  rw [Finset.sum_congr rfl fun c _ => h c, Finset.sum_sub_distrib, Finset.sum_ite_eq]
  simp

/-- The full sum of exponentials minus the diagonal term is the sum over the other columns. -/
theorem kLse_eq (r : Fin 8192) : kLse f eps (f r) = lse f eps r := by
  unfold kLse lse sumExp
  rw [sum_mul_offDiag (fun c => Real.exp (sim f r c - rowMax f r)) r, kDiagLogit_eq, kMax_eq]
  simp only [kSim_eq]

/-! ## The one-hot gather from the per-class table -/

/-- A label word below 128 selects exactly one of the 128 table rows: the one whose index is the word's value. -/
theorem onehot_eq (l : BitVec 32) (hl : l.toNat < 128) (c : Fin 128) :
    onehot l c = if c = ⟨l.toNat, hl⟩ then 1 else 0 := by
  unfold onehot
  have hiff : l = BitVec.ofNat 32 c.val ↔ c = ⟨l.toNat, hl⟩ := by
    constructor
    · intro h
      apply Fin.ext
      have h2 := congrArg BitVec.toNat h
      simp only [BitVec.toNat_ofNat] at h2
      have hc := c.isLt
      show c.val = l.toNat
      omega
    · intro h
      subst h
      simp
  simp only [hiff]

/-- Against the table row of row `r`'s label, the one-hot indicator of row `b` says whether `b` carries that label. -/
theorem onehot_lab (hlab : ∀ r, (lab r).toNat < 128) (r b : Fin 8192) :
    onehot (lab b) ⟨(lab r).toNat, hlab r⟩ = if lab b = lab r then 1 else 0 := by
  unfold onehot
  simp

/-- The one-hot row gathers the table row of the label. -/
theorem gather_eq (hlab : ∀ r, (lab r).toNat < 128) (r : Fin 8192) (T : Fin 128 → Fin 256 → ℝ) (e : Fin 256) :
    kGather (lab r) T e = T ⟨(lab r).toNat, hlab r⟩ e := by
  unfold kGather
  simp only [onehot_eq (lab r) (hlab r), ite_mul, one_mul, zero_mul]
  rw [Finset.sum_ite_eq']
  simp

/-- Every column `128 + e` of table row `c` is the number of rows labelled `c`. -/
theorem table_count (c : Fin 128) (e : Fin 128) :
    table f lab c ⟨128 + e.val, by omega⟩ = ∑ b : Fin 8192, onehot (lab b) c := by
  unfold table
  rw [dif_neg (by simp)]

/-- Column `d < 128` of table row `c` is the sum of coordinate `d` over the rows labelled `c`. -/
theorem table_feat (c : Fin 128) (d : Fin 128) :
    table f lab c ⟨d.val, by omega⟩ = ∑ b : Fin 8192, onehot (lab b) c * f b d := by
  unfold table
  rw [dif_pos (by simp)]

/-- A row carries row `r`'s label iff it is a positive of `r` or `r` itself. -/
theorem sameLabel_eq (r c : Fin 8192) :
    (if lab c = lab r then (1 : ℝ) else 0) = pos lab r c + (if r = c then 1 else 0) := by
  unfold pos
  by_cases hc : r = c
  · subst hc; simp
  · simp [hc]

/-- The number of rows carrying row `r`'s label is one more than the number of its positives. -/
theorem count_eq (r : Fin 8192) :
    (∑ b : Fin 8192, if lab b = lab r then (1 : ℝ) else 0) = 1 + nPos lab r := by
  unfold nPos
  rw [Finset.sum_congr rfl fun c _ => sameLabel_eq lab r c, Finset.sum_add_distrib, Finset.sum_ite_eq]
  simp [add_comm]

/-- The mean of the 128 equal count columns of the gathered row is the number of rows carrying the label. -/
theorem kNSame_eq (hlab : ∀ r, (lab r).toNat < 128) (r : Fin 8192) :
    kNSame (lab r) (table f lab) = 1 + nPos lab r := by
  unfold kNSame
  simp only [gather_eq lab hlab r, table_count, onehot_lab lab hlab r, count_eq]
  rw [Finset.sum_const, Finset.card_univ, Fintype.card_fin, nsmul_eq_mul]
  push_cast
  rw [mul_div_cancel_left₀ _ (by norm_num)]

/-- The number of positives. -/
theorem kNPos_eq (hlab : ∀ r, (lab r).toNat < 128) (r : Fin 8192) :
    kNPos (lab r) (table f lab) = nPos lab r := by
  unfold kNPos
  rw [kNSame_eq f lab hlab r]
  ring

/-- Whether the row has a positive. -/
theorem kValid_eq (hlab : ∀ r, (lab r).toNat < 128) (r : Fin 8192) :
    kValid (lab r) (table f lab) = valid lab r := by
  unfold kValid valid
  rw [kNPos_eq f lab hlab r]

/-! ## The positives' aggregate and the two outputs -/

/-- A weighted row against the scaled row: `(Σ_d q_d · (s · k_d)) · invT = s · sim`. -/
theorem scaled_dot (r b : Fin 8192) (s : ℝ) :
    (∑ d : Fin 128, f r d * (s * f b d)) * invT = s * sim f r b := by
  unfold sim
  rw [invT_eq, div_eq_mul_inv (∑ d : Fin 128, f r d * f b d), Finset.sum_mul, Finset.sum_mul, Finset.mul_sum]
  refine Finset.sum_congr rfl fun d _ => ?_
  ring

/-- The gathered class sums against the scaled row are the similarities summed over the rows carrying the label:
    `Σ_d q_d · (Σ_{b same} f b d) · invT = Σ_{b same} sim r b`. -/
theorem gatherDot_eq (hlab : ∀ r, (lab r).toNat < 128) (r : Fin 8192) :
    (∑ d : Fin 128, f r d * kGather (lab r) (table f lab) ⟨d.val, by omega⟩) * invT
      = ∑ b : Fin 8192, (if lab b = lab r then (1 : ℝ) else 0) * sim f r b := by
  simp only [gather_eq lab hlab r, table_feat, onehot_lab lab hlab r]
  rw [Finset.sum_congr rfl fun d _ => Finset.mul_sum _ _ _, Finset.sum_comm, Finset.sum_mul]
  exact Finset.sum_congr rfl fun b _ => scaled_dot f r b _

/-- The similarities summed over the rows carrying the label: over the positives, plus the row's own. -/
theorem sameSum_eq (r : Fin 8192) :
    (∑ b : Fin 8192, (if lab b = lab r then (1 : ℝ) else 0) * sim f r b)
      = (∑ b : Fin 8192, pos lab r b * sim f r b) + sim f r r := by
  rw [Finset.sum_congr rfl fun b _ => by rw [sameLabel_eq lab r b, add_mul], Finset.sum_add_distrib]
  congr 1
  simp only [ite_mul, one_mul, zero_mul]
  rw [Finset.sum_ite_eq]
  simp

/-- The kernel's numerator is the sum of the positives' log-probabilities. -/
theorem kNum_eq (hlab : ∀ r, (lab r).toNat < 128) (r : Fin 8192) :
    kNum f eps (f r) (lab r) (table f lab)
      = ∑ c : Fin 8192, pos lab r c * ((sim f r c - rowMax f r) - lse f eps r) := by
  unfold kNum
  rw [gatherDot_eq f lab hlab r, kNSame_eq f lab hlab r, kMax_eq, kDiagLogit_eq, kNPos_eq f lab hlab r, kLse_eq,
    sameSum_eq]
  have h2 : (∑ c : Fin 8192, pos lab r c * ((sim f r c - rowMax f r) - lse f eps r))
      = (∑ c : Fin 8192, pos lab r c * sim f r c) - nPos lab r * rowMax f r - nPos lab r * lse f eps r := by
    unfold nPos
    simp only [mul_sub, Finset.sum_sub_distrib, Finset.sum_mul]
  rw [h2]
  ring

/-- The first output: minus the mean log-probability of the positives, masked by the validity flag. -/
theorem kOut_eq (hlab : ∀ r, (lab r).toNat < 128) (r : Fin 8192) :
    kOut f eps (f r) (lab r) (table f lab) = (0 - meanLogProb f lab eps r) * valid lab r := by
  unfold kOut meanLogProb
  rw [kNum_eq f lab eps hlab r, kNPos_eq f lab hlab r, kValid_eq f lab hlab r]

/-- The host's quotient of the two column sums is the loss: `Σ_r (0 − m_r) · v_r = −Σ_r m_r · v_r`. -/
theorem kLoss_eq (hlab : ∀ r, (lab r).toNat < 128) :
    kLoss (fun r => kOut f eps (f r) (lab r) (table f lab)) (fun r => kValid (lab r) (table f lab))
      = loss f lab eps := by
  unfold kLoss loss nValid
  simp only [kOut_eq f lab eps hlab, kValid_eq f lab hlab]
  have h : (∑ r : Fin 8192, (0 - meanLogProb f lab eps r) * valid lab r)
      = -(∑ r : Fin 8192, meanLogProb f lab eps r * valid lab r) := by
    rw [← Finset.sum_neg_distrib]
    exact Finset.sum_congr rfl fun r _ => by ring
  rw [h]

end Cert.SupCon

end
-- ==== Proof.PreDecode.lean ====
/-
  The precondition decoded. The printed predicate is the conjunction of three tests, each taken over every entry:
  the absolute value of a feature is below plus infinity; a label is at least 0, read signed; a label is below 100,
  read signed. When it answers 1, every feature is therefore a real number (an extended real whose absolute value is
  not the top element is neither infinity), and every label, a signed word in [0, 100), is below 128 read unsigned.
-/
import proofs.«108639_j90117003805311_2_alg».proof.Pre_finite_inputs
import proofs.«108639_j90117003805311_2_alg».proof.Proof.Gen.Pre_finite_inputs
import Idealize.ShloMosaic.Lib.ReduceAll
import Idealize.ShloMosaic.Lib.ValueIdx
import Idealize.ShloMosaic.PureOps.Ideal

noncomputable section

namespace Cert.PreDecode

open Idealize.ShloMosaic Cert.Pre_finite_inputs

/-- The shape of rank 0 has one index. -/
instance : Subsingleton S_.Idx := ⟨fun a b => funext fun d => d.elim0⟩

/-- The word of plus infinity denotes the top element. -/
theorem ofBits_pos_inf : Ideal.ofBits .f32 0x7F800000#32 = ⊤ := by
  simp [Ideal.ofBits, Ideal.ieee]

/-- An extended real whose absolute value `max x (-x)` compares below plus infinity is a real number: at either
    infinity the absolute value is the top element, which is not below itself. -/
theorem real_of_abs_lt (x : EReal)
    (h : Ideal.cmp .olt (max x (-x)) (Ideal.ofBits .f32 0x7F800000#32) = 1#1) : ∃ r : ℝ, x = (r : EReal) := by
  rw [ofBits_pos_inf] at h
  induction x using EReal.rec with
  | bot => simp [Ideal.cmp] at h
  | coe r => exact ⟨r, rfl⟩
  | top => simp [Ideal.cmp] at h

/-- A 32-bit word that is at least 0 and below 100, read signed, is below 128 read unsigned. -/
theorem toNat_lt_of_range (w : BitVec 32) (h0 : IntOp.cmpi .sge w 0#32 = 1#1) (h1 : IntOp.cmpi .slt w 100#32 = 1#1) :
    w.toNat < 128 := by
  rw [IntOp.cmpi_sge] at h0
  rw [IntOp.cmpi_slt] at h1
  have e0 : (0#32).toInt = 0 := by decide
  have e1 : (100#32).toInt = 100 := by decide
  rw [e0] at h0
  rw [e1] at h1
  have hc := BitVec.toInt_eq_toNat_cond w
  have hl := w.isLt
  split at hc <;> omega

/-- The precondition read back: every feature is a real number and every label is below 128. -/
theorem decode [Cert.Pre_finite_inputs.Facts] (X : FVec Ideal Cert.Pre_finite_inputs.S8192x128 .f32)
    (L : IVec Cert.Pre_finite_inputs.S8192 32)
    (h : Cert.Pre_finite_inputs.fn (F := Ideal) X L = fun _ => 1#1) :
    (∀ i, ∃ x : ℝ, X i = ((x : ℝ) : EReal)) ∧ (∀ i, (L i).toNat < 128) := by
  have e := congrFun h ValueIdx.ix0
  dsimp only [Cert.Pre_finite_inputs.fn] at e
  obtain ⟨e12, e3⟩ := IntOp.andi_eq_one.1 e
  obtain ⟨e1, e2⟩ := IntOp.andi_eq_one.1 e12
  have a1 := Host.reduce_andi_all _ _ _ _ _ e1
  have a2 := Host.reduce_andi_all _ _ _ _ _ e2
  have a3 := Host.reduce_andi_all _ _ _ _ _ e3
  exact ⟨fun i => real_of_abs_lt (X i) (a1 i), fun i => toNat_lt_of_range (L i) (a2 i) (a3 i)⟩

end Cert.PreDecode

end
-- ==== Proof.RefValue2.lean ====
import proofs.«108639_j90117003805311_2_alg».proof.Proof.RefRead
import proofs.«108639_j90117003805311_2_alg».proof.Proof.LossSpec
import proofs.«108639_j90117003805311_2_alg».proof.Proof.Consts

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Cert.SupCon
open scoped BigOperators

variable (L : (⟨S8192, .i32⟩ : BufTy).Contents (Elt Ideal))

/-- Two row numbers below 8192 have equal 32-bit words exactly when they are equal. -/
theorem ofNat_beq (a b : Fin 8192) : (BitVec.ofNat 32 a.val == BitVec.ofNat 32 b.val) = decide (a = b) := by
  have ha : a.val < 8192 := a.isLt
  have hb : b.val < 8192 := b.isLt
  by_cases h : a = b
  · subst h; simp
  · have hv : a.val ≠ b.val := fun e => h (Fin.ext e)
    rw [decide_eq_false h]
    refine beq_eq_false_iff_ne.mpr fun e => hv ?_
    have := congrArg BitVec.toNat e
    simp only [BitVec.toNat_ofNat] at this
    omega

/-- The off-diagonal mask as a 1-bit word: `0` on the diagonal, `1` elsewhere. -/
theorem v14_at (r c : Fin 8192) :
    val_main_v14 (F := Ideal) (ValueIdx.ix2 r c) = if r = c then 0#1 else 1#1 := by
  rw [val_main_v14_apply, val_main_v13_apply, val_main_v12_apply, val_main_v9_apply, val_main_v10_apply,
    val_main_v11_apply, val_main_c_apply]
  show ~~~(BitVec.ofBool (BitVec.ofNat 32 r.val + 0#32 == BitVec.ofNat 32 c.val)) = _
  rw [BitVec.add_zero, ofNat_beq]
  by_cases h : r = c
  · rw [if_pos h, decide_eq_true h]; decide
  · rw [if_neg h, decide_eq_false h]; decide

/-- The off-diagonal mask as a float: `offDiag`. -/
theorem v21_at (r c : Fin 8192) :
    val_main_v21 (F := Ideal) (ValueIdx.ix2 r c) = ((offDiag r c : ℝ) : EReal) := by
  rw [val_main_v21_apply, v14_at]
  unfold offDiag
  by_cases h : r = c
  · rw [if_pos h, if_pos h]; show (((0#1 : BitVec 1).toNat : ℝ) : EReal) = _; simp
  · rw [if_neg h, if_neg h]; show (((1#1 : BitVec 1).toNat : ℝ) : EReal) = _; simp

/-- The labels broadcast along the rows are read, at `(r, c)`, at `c`. -/
theorem idx_v6 (r c : Fin 8192) : idx_main_v4 (idx_main_v6 (ValueIdx.ix2 r c)) = ValueIdx.ix1 c := by
  funext a; match a with | ⟨0, _⟩ => rfl

/-- The labels broadcast along the columns are read, at `(r, c)`, at `r`. -/
theorem idx_v7 (r c : Fin 8192) : idx_main_v5 (idx_main_v7 (ValueIdx.ix2 r c)) = ValueIdx.ix1 r := by
  funext a; match a with | ⟨0, _⟩ => rfl

/-- The positives mask as a 1-bit word: column `c` carries row `r`'s label and is not `r`. -/
theorem v15_at (r c : Fin 8192) :
    val_main_v15 (F := Ideal) L (ValueIdx.ix2 r c)
      = if L (ValueIdx.ix1 c) = L (ValueIdx.ix1 r) ∧ r ≠ c then 1#1 else 0#1 := by
  rw [val_main_v15_apply, v14_at, val_main_v8_apply, val_main_v6_apply, val_main_v7_apply, val_main_v4_apply,
    val_main_v5_apply, idx_v6, idx_v7]
  show IntOp.andi (BitVec.ofBool (L (ValueIdx.ix1 c) == L (ValueIdx.ix1 r))) _ = _
  by_cases h : r = c
  · subst h; rw [if_pos rfl, if_neg (fun h => h.2 rfl)]; simp [IntOp.andi]
  · rw [if_neg h]
    by_cases hl : L (ValueIdx.ix1 c) = L (ValueIdx.ix1 r)
    · rw [if_pos ⟨hl, h⟩, hl]; simp [IntOp.andi]
    · rw [if_neg (fun h => hl h.1), beq_eq_false_iff_ne.mpr hl]; simp [IntOp.andi]

/-- The positives mask as a float: `pos`. -/
theorem v30_at (r c : Fin 8192) :
    val_main_v30 (F := Ideal) L (ValueIdx.ix2 r c) = ((pos (fun r => L (ValueIdx.ix1 r)) r c : ℝ) : EReal) := by
  rw [val_main_v30_apply, v15_at]
  unfold pos
  by_cases h : L (ValueIdx.ix1 c) = L (ValueIdx.ix1 r) ∧ r ≠ c
  · rw [if_pos h, if_pos h]; show (((1#1 : BitVec 1).toNat : ℝ) : EReal) = _; simp
  · rw [if_neg h, if_neg h]; show (((0#1 : BitVec 1).toNat : ℝ) : EReal) = _; simp

/-- The same mask, converted a second time. -/
theorem v34_at (r c : Fin 8192) :
    val_main_v34 (F := Ideal) L (ValueIdx.ix2 r c) = ((pos (fun r => L (ValueIdx.ix1 r)) r c : ℝ) : EReal) :=
  v30_at L r c

end Cert.ReferenceIdeal.RefValue

end
-- ==== Proof.RefValue1.lean ====
import proofs.«108639_j90117003805311_2_alg».proof.Proof.RefRead
import proofs.«108639_j90117003805311_2_alg».proof.Proof.LossSpec
import proofs.«108639_j90117003805311_2_alg».proof.Proof.Consts

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Cert.SupCon
open scoped BigOperators

/-- The coercion of a finite sum of reals into the extended reals is the sum of the coercions. -/
theorem coe_sum {ι : Type} (s : Finset ι) (g : ι → ℝ) :
    ((∑ i ∈ s, g i : ℝ) : EReal) = ∑ i ∈ s, ((g i : ℝ) : EReal) := by
  classical
  refine Finset.induction_on s (by simp) (fun a s ha ih => ?_)
  rw [Finset.sum_insert ha, Finset.sum_insert ha, EReal.coe_add, ih]

variable (X : (⟨S8192x128, .f32⟩ : BufTy).Contents (Elt Ideal)) (f : Fin 8192 → Fin 128 → ℝ)

/-- The product's left operand is read at row `r`, coordinate `k`. -/
theorem lidx_v1 (r c : Fin 8192) (k : Fin 128) : lidx_main_v1 (ValueIdx.ix2 r c) k = ValueIdx.ix2 r k := by
  funext a; match a with | ⟨0, _⟩ => rfl | ⟨1, _⟩ => rfl

/-- The product's right operand, the transpose, is read at the feature matrix's row `c`, coordinate `k`. -/
theorem ridx_v1 (r c : Fin 8192) (k : Fin 128) : idx_main_v0 (ridx_main_v1 (ValueIdx.ix2 r c) k) = ValueIdx.ix2 c k := by
  funext a; match a with | ⟨0, _⟩ => rfl | ⟨1, _⟩ => rfl

/-- The product of the feature matrix with its transpose, at row `r` and column `c`: the inner product of rows `r` and `c`. -/
theorem v1_at (hX : ∀ (r : Fin 8192) (d : Fin 128), X (ValueIdx.ix2 r d) = ((f r d : ℝ) : EReal)) (r c : Fin 8192) :
    val_main_v1 (F := Ideal) X (ValueIdx.ix2 r c) = ((∑ d : Fin 128, f r d * f c d : ℝ) : EReal) := by
  rw [val_main_v1_apply, coe_sum]
  refine Finset.sum_congr rfl fun k _ => ?_
  rw [val_main_v0_apply, lidx_v1, ridx_v1, hX, hX, EReal.coe_mul]

/-- The similarity matrix: the inner product divided by the temperature word, `x / t = x * (1 / t)` for the nonzero real `t`. -/
theorem v3_at (hX : ∀ (r : Fin 8192) (d : Fin 128), X (ValueIdx.ix2 r d) = ((f r d : ℝ) : EReal)) (r c : Fin 8192) :
    val_main_v3 (F := Ideal) X (ValueIdx.ix2 r c) = ((sim f r c : ℝ) : EReal) := by
  rw [val_main_v3_apply, v1_at X f hX, val_main_v2_apply, val_main_cst_apply, Ideal.hostDivf_def, Ideal.ofBits_def,
    Cert.Consts.ofBits_temp, Ideal.div_coe (by norm_num), ← EReal.coe_mul]
  refine congrArg _ ?_
  unfold sim temp
  rw [mul_one_div]

end Cert.ReferenceIdeal.RefValue

end
-- ==== Proof.RefValue3.lean ====
import proofs.«108639_j90117003805311_2_alg».proof.Proof.RefValue1
import proofs.«108639_j90117003805311_2_alg».proof.Proof.LibPoolFold

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Cert.SupCon
open scoped BigOperators

variable (X : (⟨S8192x128, .f32⟩ : BufTy).Contents (Elt Ideal)) (f : Fin 8192 → Fin 128 → ℝ)

/-- Dropping the column coordinate of `(r, c)` leaves `r`. -/
theorem drop_d1 (r c : Fin 8192) : reducesTo_S8192x8192_S8192_d1.drop (ValueIdx.ix2 r c) = ValueIdx.ix1 r := by
  funext b
  match b with
  | ⟨0, _⟩ => exact Fin.ext (Shape.ReducesTo.drop_apply_val_of_eq reducesTo_S8192x8192_S8192_d1 (ValueIdx.ix2 r c) 0 0)

/-- The greatest of `-∞` and a nonempty finite family of reals is the coercion of the family's supremum. -/
theorem maxOver_bot_coe (r0 : Fin 8192) (g : Fin 8192 → ℝ) :
    Cert.PoolFold.maxOver ⊥ (fun c => ((g c : ℝ) : EReal))
      = (((Finset.univ : Finset (Fin 8192)).sup' ⟨r0, Finset.mem_univ r0⟩ g : ℝ) : EReal) := by
  symm
  refine Cert.PoolFold.eq_maxOver_of_le_iff fun c => ?_
  induction c using EReal.rec with
  | bot => exact ⟨fun h => absurd h (by simp), fun h => absurd (h.2 r0) (by simp)⟩
  | coe x =>
    refine EReal.coe_le_coe_iff.trans ((Finset.sup'_le_iff _ _).trans ?_)
    exact ⟨fun h => ⟨bot_le, fun p => EReal.coe_le_coe_iff.mpr (h p (Finset.mem_univ p))⟩,
      fun h p _ => EReal.coe_le_coe_iff.mp (h.2 p)⟩
  | top => exact ⟨fun _ => ⟨le_top, fun _ => le_top⟩, fun _ => le_top⟩

/-- The row maximum of the similarity matrix: the maximum from `-∞` over row `r`'s entries is the coercion of `rowMax`. -/
theorem v16_at (hX : ∀ (r : Fin 8192) (d : Fin 128), X (ValueIdx.ix2 r d) = ((f r d : ℝ) : EReal)) (r : Fin 8192) :
    val_main_v16 (F := Ideal) X (ValueIdx.ix1 r) = ((rowMax f r : ℝ) : EReal) := by
  unfold val_main_v16
  refine (Cert.PoolFold.hostReduce_max_eq_maxOver (val_main_v3 (F := Ideal) X) (val_main_cst_0 (F := Ideal))
    reducesTo_S8192x8192_S8192_d1 h_S_ (ValueIdx.ix1 r) (fun c : Fin 8192 => ((sim f r c : ℝ) : EReal))
    (fun c => ⟨ValueIdx.ix2 r c, drop_d1 r c, v3_at X f hX r c⟩) (fun i hi => ?_)).trans ?_
  · obtain ⟨a, b, rfl⟩ : ∃ a b : Fin 8192, i = ValueIdx.ix2 a b := ⟨i 0, i 1, ValueIdx.eq_ix2 i⟩
    rw [drop_d1] at hi
    have har : a = r := congrFun hi 0
    subst har
    exact ⟨b, (v3_at X f hX a b).symm⟩
  · rw [val_main_cst_0_apply, Ideal.ofBits_def, Cert.Consts.ofBits_neg_inf]
    exact maxOver_bot_coe r (sim f r)

end Cert.ReferenceIdeal.RefValue

end
-- ==== Proof.RefValue4.lean ====
import proofs.«108639_j90117003805311_2_alg».proof.Proof.RefValue2
import proofs.«108639_j90117003805311_2_alg».proof.Proof.RefValue3

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Cert.SupCon
open scoped BigOperators

variable (X : (⟨S8192x128, .f32⟩ : BufTy).Contents (Elt Ideal)) (f : Fin 8192 → Fin 128 → ℝ)

/-- The row maximum broadcast along the columns is read, at `(r, c)`, at `r`. -/
theorem idx_v18 (r c : Fin 8192) : idx_main_v17 (idx_main_v18 (ValueIdx.ix2 r c)) = ValueIdx.ix1 r := by
  funext a; match a with | ⟨0, _⟩ => rfl

/-- The shifted similarity: the similarity minus its row's maximum. -/
theorem v19_at (hX : ∀ (r : Fin 8192) (d : Fin 128), X (ValueIdx.ix2 r d) = ((f r d : ℝ) : EReal)) (r c : Fin 8192) :
    val_main_v19 (F := Ideal) X (ValueIdx.ix2 r c) = ((sim f r c - rowMax f r : ℝ) : EReal) := by
  rw [val_main_v19_apply, v3_at X f hX, val_main_v18_apply, val_main_v17_apply, idx_v18, v16_at X f hX,
    Ideal.subf_def, ← EReal.coe_sub]

/-- Its exponential. -/
theorem v20_at (hX : ∀ (r : Fin 8192) (d : Fin 128), X (ValueIdx.ix2 r d) = ((f r d : ℝ) : EReal)) (r c : Fin 8192) :
    val_main_v20 (F := Ideal) X (ValueIdx.ix2 r c) = ((Real.exp (sim f r c - rowMax f r) : ℝ) : EReal) := by
  rw [val_main_v20_apply, v19_at X f hX, Ideal.hostUnary_exp_def, Ideal.exp_coe]

/-- The exponential with the diagonal masked out. -/
theorem v22_at (hX : ∀ (r : Fin 8192) (d : Fin 128), X (ValueIdx.ix2 r d) = ((f r d : ℝ) : EReal)) (r c : Fin 8192) :
    val_main_v22 (F := Ideal) X (ValueIdx.ix2 r c)
      = ((Real.exp (sim f r c - rowMax f r) * offDiag r c : ℝ) : EReal) := by
  rw [val_main_v22_apply, v20_at X f hX, v21_at, Ideal.mulf_def, ← EReal.coe_mul]

/-- The row sum at `r` gathers the entries `(r, k)`. -/
theorem idx_v23 (r k : Fin 8192) : idx_main_v23 (ValueIdx.ix1 r) k = ValueIdx.ix2 r k := by
  funext a; match a with | ⟨0, _⟩ => rfl | ⟨1, _⟩ => rfl

/-- The row sums of the masked exponentials, from the zero word: `sumExp`. -/
theorem v23_at (hX : ∀ (r : Fin 8192) (d : Fin 128), X (ValueIdx.ix2 r d) = ((f r d : ℝ) : EReal)) (r : Fin 8192) :
    val_main_v23 (F := Ideal) X (ValueIdx.ix1 r) = ((sumExp f r : ℝ) : EReal) := by
  rw [val_main_v23_apply, val_main_cst_1_apply, Ideal.ofBits_def, Cert.Consts.ofBits_zero, zero_add]
  unfold sumExp
  rw [coe_sum]
  refine Finset.sum_congr rfl fun k _ => ?_
  rw [idx_v23, v22_at X f hX]

/-- The row sums as a one-column matrix are read, at `(r, 0)`, at `r`. -/
theorem idx_v24 (r : Fin 8192) : idx_main_v24 (ValueIdx.ix2 r (0 : Fin 1)) = ValueIdx.ix1 r := by
  funext a; match a with | ⟨0, _⟩ => rfl

/-- The row sum plus the small constant. -/
theorem v26_at (hX : ∀ (r : Fin 8192) (d : Fin 128), X (ValueIdx.ix2 r d) = ((f r d : ℝ) : EReal)) (r : Fin 8192) :
    val_main_v26 (F := Ideal) X (ValueIdx.ix2 r (0 : Fin 1)) = ((sumExp f r + Cert.Consts.eps : ℝ) : EReal) := by
  rw [val_main_v26_apply, val_main_v24_apply, idx_v24, v23_at X f hX, val_main_v25_apply, val_main_cst_2_apply,
    Ideal.ofBits_def, Cert.Consts.ofBits_eps, Ideal.addf_def, ← EReal.coe_add]

/-- A sum of exponentials times 0/1 masks is nonnegative, so adding the positive constant gives a positive number. -/
theorem sumExp_eps_pos (r : Fin 8192) : 0 < sumExp f r + Cert.Consts.eps := by
  refine add_pos_of_nonneg_of_pos (Finset.sum_nonneg fun c _ => mul_nonneg (Real.exp_pos _).le ?_) Cert.Consts.eps_pos
  unfold offDiag; split_ifs <;> norm_num

/-- Its logarithm, the argument being positive: `lse`. -/
theorem v27_at (hX : ∀ (r : Fin 8192) (d : Fin 128), X (ValueIdx.ix2 r d) = ((f r d : ℝ) : EReal)) (r : Fin 8192) :
    val_main_v27 (F := Ideal) X (ValueIdx.ix2 r (0 : Fin 1)) = ((lse f Cert.Consts.eps r : ℝ) : EReal) := by
  rw [val_main_v27_apply, v26_at X f hX, Ideal.hostUnary_log_def, Ideal.log_coe, if_neg (not_le.mpr (sumExp_eps_pos f r))]
  rfl

/-- The one-column matrix broadcast along the columns is read, at `(r, c)`, at `(r, 0)`. -/
theorem idx_v28 (r c : Fin 8192) : idx_main_v28 (ValueIdx.ix2 r c) = ValueIdx.ix2 r (0 : Fin 1) := by
  funext a; match a with | ⟨0, _⟩ => rfl | ⟨1, _⟩ => rfl

/-- The log-probability: the shifted similarity minus the row's log-sum. -/
theorem v29_at (hX : ∀ (r : Fin 8192) (d : Fin 128), X (ValueIdx.ix2 r d) = ((f r d : ℝ) : EReal)) (r c : Fin 8192) :
    val_main_v29 (F := Ideal) X (ValueIdx.ix2 r c)
      = (((sim f r c - rowMax f r) - lse f Cert.Consts.eps r : ℝ) : EReal) := by
  rw [val_main_v29_apply, v19_at X f hX, val_main_v28_apply, idx_v28, v27_at X f hX, Ideal.subf_def, ← EReal.coe_sub]

end Cert.ReferenceIdeal.RefValue

end
-- ==== Proof.RefValue5.lean ====
import proofs.«108639_j90117003805311_2_alg».proof.Proof.RefValue4

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Cert.SupCon
open scoped BigOperators

variable (X : (⟨S8192x128, .f32⟩ : BufTy).Contents (Elt Ideal)) (L : (⟨S8192, .i32⟩ : BufTy).Contents (Elt Ideal))
  (f : Fin 8192 → Fin 128 → ℝ)

/-- The coercion of the reals into the extended reals is monotone, so it carries `max` to `max`. -/
theorem coe_max (a b : ℝ) : max ((a : ℝ) : EReal) ((b : ℝ) : EReal) = ((max a b : ℝ) : EReal) :=
  (EReal.coe_strictMono.monotone.map_max).symm

/-- Comparing a real with zero, "greater than", as a 1-bit word. -/
theorem cmp_ogt_zero (x : ℝ) : Ideal.cmp .ogt ((x : ℝ) : EReal) 0 = if 0 < x then 1#1 else 0#1 := by
  show BitVec.ofBool (decide ((0 : EReal) < ((x : ℝ) : EReal))) = _
  by_cases h : 0 < x
  · rw [if_pos h, decide_eq_true (EReal.coe_pos.mpr h)]; rfl
  · rw [if_neg h, decide_eq_false (fun h' => h (EReal.coe_pos.mp h'))]; rfl

/-- The row sum at `r` gathers the entries `(r, k)`. -/
theorem idx_v31 (r k : Fin 8192) : idx_main_v31 (ValueIdx.ix1 r) k = ValueIdx.ix2 r k := by
  funext a; match a with | ⟨0, _⟩ => rfl | ⟨1, _⟩ => rfl

/-- The number of positives of each row, from the zero word: `nPos`. -/
theorem v31_at (r : Fin 8192) :
    val_main_v31 (F := Ideal) L (ValueIdx.ix1 r) = ((nPos (fun r => L (ValueIdx.ix1 r)) r : ℝ) : EReal) := by
  rw [val_main_v31_apply, val_main_cst_3_apply, Ideal.ofBits_def, Cert.Consts.ofBits_zero, zero_add]
  unfold nPos
  rw [coe_sum]
  refine Finset.sum_congr rfl fun k _ => ?_
  rw [idx_v31, v30_at]

/-- Whether the row has a positive, as a float: `valid`. -/
theorem v40_at (r : Fin 8192) :
    val_main_v40 (F := Ideal) L (ValueIdx.ix1 r) = ((valid (fun r => L (ValueIdx.ix1 r)) r : ℝ) : EReal) := by
  rw [val_main_v40_apply, val_main_v33_apply, v31_at, val_main_v32_apply, val_main_cst_4_apply, Ideal.ofBits_def,
    Cert.Consts.ofBits_zero, Ideal.cmpf_def, cmp_ogt_zero]
  unfold valid
  by_cases h : 0 < nPos (fun r => L (ValueIdx.ix1 r)) r
  · rw [if_pos h, if_pos h]; show (((1#1 : BitVec 1).toNat : ℝ) : EReal) = _; simp
  · rw [if_neg h, if_neg h]; show (((0#1 : BitVec 1).toNat : ℝ) : EReal) = _; simp

/-- The masked log-probability. -/
theorem v35_at (hX : ∀ (r : Fin 8192) (d : Fin 128), X (ValueIdx.ix2 r d) = ((f r d : ℝ) : EReal)) (r c : Fin 8192) :
    val_main_v35 (F := Ideal) X L (ValueIdx.ix2 r c)
      = ((pos (fun r => L (ValueIdx.ix1 r)) r c * ((sim f r c - rowMax f r) - lse f Cert.Consts.eps r) : ℝ) : EReal) := by
  rw [val_main_v35_apply, v34_at, v29_at X f hX, Ideal.mulf_def, ← EReal.coe_mul]

/-- The row sum at `r` gathers the entries `(r, k)`. -/
theorem idx_v36 (r k : Fin 8192) : idx_main_v36 (ValueIdx.ix1 r) k = ValueIdx.ix2 r k := by
  funext a; match a with | ⟨0, _⟩ => rfl | ⟨1, _⟩ => rfl

/-- Its row sums, from the zero word. -/
theorem v36_at (hX : ∀ (r : Fin 8192) (d : Fin 128), X (ValueIdx.ix2 r d) = ((f r d : ℝ) : EReal)) (r : Fin 8192) :
    val_main_v36 (F := Ideal) X L (ValueIdx.ix1 r)
      = ((∑ c : Fin 8192, pos (fun r => L (ValueIdx.ix1 r)) r c * ((sim f r c - rowMax f r) - lse f Cert.Consts.eps r) : ℝ) : EReal) := by
  rw [val_main_v36_apply, val_main_cst_5_apply, Ideal.ofBits_def, Cert.Consts.ofBits_zero, zero_add, coe_sum]
  refine Finset.sum_congr rfl fun k _ => ?_
  rw [idx_v36, v35_at X L f hX]

/-- The number of positives, at least one. -/
theorem v38_at (r : Fin 8192) :
    val_main_v38 (F := Ideal) L (ValueIdx.ix1 r) = ((max (nPos (fun r => L (ValueIdx.ix1 r)) r) 1 : ℝ) : EReal) := by
  rw [val_main_v38_apply, v31_at, val_main_v37_apply, val_main_cst_6_apply, Ideal.ofBits_def, Cert.Consts.ofBits_one,
    Ideal.maximumf_def, coe_max]

/-- The mean log-probability of the row's positives: a quotient by a real that is at least one. -/
theorem v39_at (hX : ∀ (r : Fin 8192) (d : Fin 128), X (ValueIdx.ix2 r d) = ((f r d : ℝ) : EReal)) (r : Fin 8192) :
    val_main_v39 (F := Ideal) X L (ValueIdx.ix1 r)
      = ((meanLogProb f (fun r => L (ValueIdx.ix1 r)) Cert.Consts.eps r : ℝ) : EReal) := by
  have hne : max (nPos (fun r => L (ValueIdx.ix1 r)) r) 1 ≠ 0 :=
    ne_of_gt (lt_of_lt_of_le one_pos (le_max_right _ _))
  rw [val_main_v39_apply, v36_at X L f hX, v38_at, Ideal.hostDivf_def, Ideal.div_coe hne, ← EReal.coe_mul]
  refine congrArg _ ?_
  unfold meanLogProb
  rw [mul_one_div]

/-- The mean log-probability, masked by whether the row has a positive. -/
theorem v42_at (hX : ∀ (r : Fin 8192) (d : Fin 128), X (ValueIdx.ix2 r d) = ((f r d : ℝ) : EReal)) (r : Fin 8192) :
    val_main_v42 (F := Ideal) X L (ValueIdx.ix1 r)
      = ((meanLogProb f (fun r => L (ValueIdx.ix1 r)) Cert.Consts.eps r * valid (fun r => L (ValueIdx.ix1 r)) r : ℝ) : EReal) := by
  rw [val_main_v42_apply, v39_at X L f hX, v40_at, Ideal.mulf_def, ← EReal.coe_mul]

end Cert.ReferenceIdeal.RefValue

end
-- ==== Proof.RefValue6.lean ====
import proofs.«108639_j90117003805311_2_alg».proof.Proof.RefValue5

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Cert.SupCon
open scoped BigOperators

variable (X : (⟨S8192x128, .f32⟩ : BufTy).Contents (Elt Ideal)) (L : (⟨S8192, .i32⟩ : BufTy).Contents (Elt Ideal))
  (f : Fin 8192 → Fin 128 → ℝ)

/-- A sum over the indices of a one-axis array is the sum over the axis's coordinates. -/
theorem sum_idx1 {M : Type} [AddCommMonoid M] {n : Nat} (g : (⟨1, ![n]⟩ : Shape).Idx → M) :
    ∑ j, g j = ∑ a : Fin n, g (ValueIdx.ix1 a) := by
  let e : Fin n ≃ (⟨1, ![n]⟩ : Shape).Idx :=
    { toFun := ValueIdx.ix1, invFun := fun j => j 0, left_inv := fun _ => rfl,
      right_inv := fun j => (ValueIdx.eq_ix1 j).symm }
  exact (Equiv.sum_comp e g).symm

/-- The number of rows that have a positive, from the zero word: `nValid`. -/
theorem v41_at (i : S_.Idx) :
    val_main_v41 (F := Ideal) L i = ((nValid (fun r => L (ValueIdx.ix1 r)) : ℝ) : EReal) := by
  rw [val_main_v41_apply, val_main_cst_7_apply, Ideal.ofBits_def, Cert.Consts.ofBits_zero, zero_add]
  refine (sum_idx1 (n := 8192) _).trans ?_
  unfold nValid
  rw [coe_sum]
  exact Finset.sum_congr rfl fun r _ => v40_at L r

/-- The sum over the rows of the masked mean log-probabilities, from the zero word. -/
theorem v43_at (hX : ∀ (r : Fin 8192) (d : Fin 128), X (ValueIdx.ix2 r d) = ((f r d : ℝ) : EReal)) (i : S_.Idx) :
    val_main_v43 (F := Ideal) X L i
      = ((∑ r : Fin 8192, meanLogProb f (fun r => L (ValueIdx.ix1 r)) Cert.Consts.eps r
          * valid (fun r => L (ValueIdx.ix1 r)) r : ℝ) : EReal) := by
  rw [val_main_v43_apply, val_main_cst_8_apply, Ideal.ofBits_def, Cert.Consts.ofBits_zero, zero_add]
  refine (sum_idx1 (n := 8192) _).trans ?_
  rw [coe_sum]
  exact Finset.sum_congr rfl fun r _ => v42_at X L f hX r

/-- Its negation. -/
theorem v44_at (hX : ∀ (r : Fin 8192) (d : Fin 128), X (ValueIdx.ix2 r d) = ((f r d : ℝ) : EReal)) (i : S_.Idx) :
    val_main_v44 (F := Ideal) X L i
      = ((-(∑ r : Fin 8192, meanLogProb f (fun r => L (ValueIdx.ix1 r)) Cert.Consts.eps r
          * valid (fun r => L (ValueIdx.ix1 r)) r) : ℝ) : EReal) := by
  rw [val_main_v44_apply, v43_at X L f hX, Ideal.hostNegf_def, Ideal.negf_def, ← EReal.coe_neg]

/-- The number of valid rows, at least one. -/
theorem v45_at (i : S_.Idx) :
    val_main_v45 (F := Ideal) L i = ((max (nValid (fun r => L (ValueIdx.ix1 r))) 1 : ℝ) : EReal) := by
  rw [val_main_v45_apply, v41_at, val_main_cst_9_apply, Ideal.ofBits_def, Cert.Consts.ofBits_one,
    Ideal.maximumf_def, coe_max]

/-- The quotient: minus the sum over the number of valid rows (a real that is at least one). -/
theorem v46_at (hX : ∀ (r : Fin 8192) (d : Fin 128), X (ValueIdx.ix2 r d) = ((f r d : ℝ) : EReal)) (i : S_.Idx) :
    val_main_v46 (F := Ideal) X L i
      = (((-(∑ r : Fin 8192, meanLogProb f (fun r => L (ValueIdx.ix1 r)) Cert.Consts.eps r
          * valid (fun r => L (ValueIdx.ix1 r)) r)) / max (nValid (fun r => L (ValueIdx.ix1 r))) 1 : ℝ) : EReal) := by
  have hne : max (nValid (fun r => L (ValueIdx.ix1 r))) 1 ≠ 0 :=
    ne_of_gt (lt_of_lt_of_le one_pos (le_max_right _ _))
  rw [val_main_v46_apply, v44_at X L f hX, v45_at, Ideal.hostDivf_def, Ideal.div_coe hne, ← EReal.coe_mul, mul_one_div]

/-- Whether some row is valid, as a 1-bit word. -/
theorem v47_at (i : S_.Idx) :
    val_main_v47 (F := Ideal) L i = if 0 < nValid (fun r => L (ValueIdx.ix1 r)) then 1#1 else 0#1 := by
  rw [val_main_v47_apply, v41_at, val_main_cst_10_apply, Ideal.ofBits_def, Cert.Consts.ofBits_zero, Ideal.cmpf_def,
    cmp_ogt_zero]

end Cert.ReferenceIdeal.RefValue

end
-- ==== Proof.RefValue.lean ====
/-
  The reference program's result, read one operation at a time, is the supervised contrastive loss over the reals.

  Stage by stage (each module proves "the stage at an index is the coercion of the specification's real term"):
  the similarity matrix (inner products over the temperature), the 0/1 masks (off the diagonal; same label and not
  self), the row maximum, the shifted exponentials and their masked row sums, the logarithm of a positive number,
  the log-probabilities and their masked row means, and the mean over the rows that have a positive.  Every
  quantity is a real: sums, products, differences, maxima and quotients by nonzero reals of coercions are coercions.
-/
import proofs.«108639_j90117003805311_2_alg».proof.Proof.RefValue6

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP Cert.SupCon
open scoped BigOperators

/-- The reference program's result is the loss over the reals. -/
theorem ref_value (X : (⟨S8192x128, .f32⟩ : BufTy).Contents (Elt Ideal)) (L : (⟨S8192, .i32⟩ : BufTy).Contents (Elt Ideal))
    (f : Fin 8192 → Fin 128 → ℝ) (hX : ∀ (r : Fin 8192) (d : Fin 128), X (ValueIdx.ix2 r d) = ((f r d : ℝ) : EReal)) :
    Cert.ReferenceIdeal.ReadP.val_main_v48 (F := Ideal) X L
      = fun _ => ((Cert.SupCon.loss f (fun r => L (ValueIdx.ix1 r)) Cert.Consts.eps : ℝ) : EReal) := by
  funext i
  rw [val_main_v48_apply, v47_at, v46_at X L f hX, val_main_cst_11_apply, Ideal.ofBits_def, Cert.Consts.ofBits_zero]
  unfold loss
  by_cases h : 0 < nValid (fun r => L (ValueIdx.ix1 r))
  · rw [if_pos h, if_pos h, ValueIdx.select_one]
  · rw [if_neg h, if_neg h, ValueIdx.select_zero]; exact EReal.coe_zero.symm

end Cert.ReferenceIdeal.RefValue

end
-- ==== Proof.Bridge.lean ====
/-
  The bridge: under the precondition the reference's result and the kernel program's result are one extended real.

  The precondition makes every feature a real number and puts every label in `0 … 99`. With `f` the real feature matrix
  and `lab` the labels, the reference's result is the coercion of `loss f lab eps`; the kernel program's result is the
  host tail of its two output columns, whose rows are the kernel arrangement's `kOut` and `kValid` over the class table
  `table f lab` the host builds before the kernel; and over the reals the two arrangements are one function
  (`kLoss_eq`: a label below 128 selects its own table row, the row itself is among the rows carrying its label, the
  diagonal term removed from the full sum of exponentials leaves the sum over the other columns, and the scale
  `invT` is the reciprocal of the temperature the reference divides by).
-/
import proofs.«108639_j90117003805311_2_alg».proof.Proof.KernelTail
import proofs.«108639_j90117003805311_2_alg».proof.Proof.KernelValue
import proofs.«108639_j90117003805311_2_alg».proof.Proof.HostPrefix
import proofs.«108639_j90117003805311_2_alg».proof.Proof.TailValue
import proofs.«108639_j90117003805311_2_alg».proof.Proof.LossAlgebra
import proofs.«108639_j90117003805311_2_alg».proof.Proof.PreDecode
import proofs.«108639_j90117003805311_2_alg».proof.Proof.RefValue

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.SupCon

/-- On a device whose argument arrays satisfy the precondition, the reference's last stage of those arrays is the host
    tail of the kernel's two output columns. -/
theorem result_eq (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1)) = fun _ => 1#1) :
    Cert.ReferenceIdeal.ReadP.val_main_v48 (F := Ideal) (m ((c.tc : Thread nD τ).loc main_arg0)) (m ((c.tc : Thread nD τ).loc main_arg1))
      = Cert.KernelIdeal.Tail.tail ((dats m 0 c).arrAt 3 cfg0.N) ((dats m 0 c).arrAt 4 cfg0.N) := by
  obtain ⟨hfin, hlab⟩ := Cert.PreDecode.decode _ _ hpre
  let f : Fin 8192 → Fin 128 → ℝ := fun r d => ((m ((c.tc : Thread nD τ).loc main_arg0) : S8192x128.Idx → EReal) (ix2 r d)).toReal
  have hX : ∀ (r : Fin 8192) (d : Fin 128), (m ((c.tc : Thread nD τ).loc main_arg0) : S8192x128.Idx → EReal) (ix2 r d) = ((f r d : ℝ) : EReal) := fun r d => by
    obtain ⟨x, hx⟩ := hfin (ix2 r d)
    show _ = (((m ((c.tc : Thread nD τ).loc main_arg0) : S8192x128.Idx → EReal) (ix2 r d)).toReal : EReal)
    rw [hx]; rfl
  let lab : Fin 8192 → BitVec 32 := fun r => (m ((c.tc : Thread nD τ).loc main_arg1) : S8192.Idx → BitVec 32) (ix1 r)
  have hlab' : ∀ r, (lab r).toNat < 128 := fun r => hlab (ix1 r)
  have hF : ∀ (r : Fin 8192) (d : Fin 128), (V m c main_v0 : S8192x128.Idx → EReal) (ix2 r d) = ((f r d : ℝ) : EReal) :=
    fun r d => (Cert.KernelIdeal.Prefix.V_feat m c (ix2 r d)).trans (hX r d)
  have hL : ∀ r : Fin 8192, (V m c main_v1 : S8192x1.Idx → BitVec 32) (ix2 r (0 : Fin 1)) = lab r :=
    fun r => Cert.KernelIdeal.Prefix.V_labcol m c r
  have hT : ∀ (cl : Fin 128) (e : Fin 256), (V m c main_v14 : S128x256.Idx → EReal) (ix2 cl e) = ((table f lab cl e : ℝ) : EReal) :=
    fun cl e => Cert.KernelIdeal.Prefix.V_table m c f hX cl e
  rw [Cert.ReferenceIdeal.RefValue.ref_value _ _ f hX,
    Cert.KernelIdeal.Value.final3 m c f lab (table f lab) hF hL hT,
    Cert.KernelIdeal.Value.final4 m c lab (table f lab) hL hT,
    Cert.KernelIdeal.Tail.tail_value (fun r => kOut f Cert.Consts.eps (f r) (lab r) (table f lab)) (fun r => kValid (lab r) (table f lab))
      _ _ (fun _ => rfl) (fun _ => rfl),
    kLoss_eq f lab Cert.Consts.eps hlab']

end Cert.Bridge

end
-- ==== Proof.lean ====
/-
  The certificate of the supervised contrastive loss kernel against its jnp reference, over the extended reals.

  * The three frames: the kernel's and its idealization's are their frame runs; the reference's is its run with the
    result dropped.
  * `preserves`: the idealization reads the kernel's scale `10.0` (three occurrences in the body) as the exact reciprocal
    of the temperature word the reference divides by; each conjunct is that table entry's statement.
  * `algebraic`: the kernel program's run ends at the host tail of its two output columns, the reference's at its last
    stage of the same arguments, and under the precondition (finite features, labels in `0 … 99`) the two are one
    extended real (Proof/Bridge.lean).
-/
import proofs.«108639_j90117003805311_2_alg».proof.Defs
import proofs.«108639_j90117003805311_2_alg».proof.Proof.Gen.Kernel
import proofs.«108639_j90117003805311_2_alg».proof.Proof.Gen.Kernel.Skeleton
import proofs.«108639_j90117003805311_2_alg».proof.Proof.Gen.Kernel.Launch
import proofs.«108639_j90117003805311_2_alg».proof.Proof.Gen.Kernel.Points
import proofs.«108639_j90117003805311_2_alg».proof.Proof.Gen.Kernel.Frame
import proofs.«108639_j90117003805311_2_alg».proof.Proof.Gen.KernelIdeal
import proofs.«108639_j90117003805311_2_alg».proof.Proof.Gen.KernelIdeal.Skeleton
import proofs.«108639_j90117003805311_2_alg».proof.Proof.Gen.KernelIdeal.Launch
import proofs.«108639_j90117003805311_2_alg».proof.Proof.Gen.KernelIdeal.Points
import proofs.«108639_j90117003805311_2_alg».proof.Proof.Gen.KernelIdeal.Frame
import proofs.«108639_j90117003805311_2_alg».proof.Proof.Gen.ReferenceIdeal
import proofs.«108639_j90117003805311_2_alg».proof.Proof.Gen.Pre_finite_inputs
import proofs.«108639_j90117003805311_2_alg».proof.Proof.RefRun
import proofs.«108639_j90117003805311_2_alg».proof.Proof.RefRead
import proofs.«108639_j90117003805311_2_alg».proof.Proof.KernelTail
import proofs.«108639_j90117003805311_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The table gives the name `inv_t` the reciprocal of the reference's temperature word, and each of the three printed
    constants is that value at the ideal instance. -/
theorem preserves : Cert.preserves_Kernel_KernelIdeal :=
  ⟨IdealRules.named_const.statement Cert.KernelIdeal.κ "inv_t" .f32 0x41200000#32 ((134217728 / 13421773 : ℝ) : EReal) rfl,
   IdealRules.named_const.statement Cert.KernelIdeal.κ "inv_t" .f32 0x41200000#32 ((134217728 / 13421773 : ℝ) : EReal) rfl,
   IdealRules.named_const.statement Cert.KernelIdeal.κ "inv_t" .f32 0x41200000#32 ((134217728 / 13421773 : ℝ) : EReal) rfl⟩

/-- Both idealized programs run; the kernel program's result is the host tail of its two output columns, and the
    reference's result, from arguments that agree and satisfy the precondition, is the same extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Tail.tail ((Cert.KernelIdeal.Gen.dats m 0 c).arrAt 3 Cert.KernelIdeal.cfg0.N)
      ((Cert.KernelIdeal.Gen.dats m 0 c).arrAt 4 Cert.KernelIdeal.cfg0.N), Cert.KernelIdeal.Tail.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v48_eq, (hagree c).1, (hagree c).2]
  exact Cert.Bridge.result_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
